-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S300000 : Shape := ⟨1, ![300000]⟩
abbrev S512x128 : Shape := ⟨2, ![512, 128]⟩
abbrev S128 : Shape := ⟨1, ![128]⟩
abbrev S128x128 : Shape := ⟨2, ![128, 128]⟩
abbrev S128x6 : Shape := ⟨2, ![128, 6]⟩
abbrev S6 : Shape := ⟨1, ![6]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x6 : S_.BroadcastsInDim S128x6 (![] : Fin 0 → Fin S128x6.rank)
  reducesTo_S128x6_S_d0_1 : S128x6.ReducesTo [0, 1] S_
  bcast_S_S6 : S_.BroadcastsInDim S6 (![] : Fin 0 → Fin S6.rank)
  reducesTo_S6_S_d0 : S6.ReducesTo [0] S_

variable [Facts]

def fn_part2 {F : FTy → Type} [FloatOps F] (main_arg11 : FVec F S128x6 .f32) (main_arg12 : FVec F S6 .f32) (main_v33 : IVec S_ 1) : IVec S_ 1 :=
  let main_v34 : FVec F S128x6 .f32 := Host.absf main_arg11
  let main_cst_12 : FVec F S_ .f32 := constant S_ .f32 0x7F800000#32
  let main_v35 : FVec F S128x6 .f32 := broadcastInDim S128x6 ![] bcast_S_S128x6 main_cst_12
  let main_v36 : IVec S128x6 1 := cmpf .olt main_v34 main_v35
  let main_c_13 : IVec S_ 1 := constantI S_ 1 1#1
  let main_v37 : IVec S_ 1 := (fun x v => Host.reduce IntOp.andi x v reducesTo_S128x6_S_d0_1 h_S_) main_v36 main_c_13
  let main_v38 : IVec S_ 1 := andi main_v33 main_v37
  let main_v39 : FVec F S6 .f32 := Host.absf main_arg12
  let main_cst_14 : FVec F S_ .f32 := constant S_ .f32 0x7F800000#32
  let main_v40 : FVec F S6 .f32 := broadcastInDim S6 ![] bcast_S_S6 main_cst_14
  let main_v41 : IVec S6 1 := cmpf .olt main_v39 main_v40
  let main_c_15 : IVec S_ 1 := constantI S_ 1 1#1
  let main_v42 : IVec S_ 1 := (fun x v => Host.reduce IntOp.andi x v reducesTo_S6_S_d0 h_S_) main_v41 main_c_15
  let main_v43 : IVec S_ 1 := andi main_v38 main_v42
  main_v43

def fn_part1 {F : FTy → Type} [FloatOps F] (main_arg8 : FVec F S128 .f32) (main_arg9 : FVec F S128x128 .f32) (main_arg10 : FVec F S128 .f32) (main_arg11 : FVec F S128x6 .f32) (main_arg12 : FVec F S6 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg8
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg9
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg11 main_arg12 main_v33

def fn {F : FTy → Type} [FloatOps F] (main_arg0 : FVec F S100000x128 .f32) (main_arg1 : IVec S300000 32) (main_arg2 : IVec S300000 32) (main_arg3 : IVec S300000 32) (main_arg4 : IVec S300000 32) (main_arg5 : FVec F S512x128 .f32) (main_arg6 : FVec F S128 .f32) (main_arg7 : FVec F S128x128 .f32) (main_arg8 : FVec F S128 .f32) (main_arg9 : FVec F S128x128 .f32) (main_arg10 : FVec F S128 .f32) (main_arg11 : FVec F S128x6 .f32) (main_arg12 : FVec F S6 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S512x128 .f32 := Host.absf main_arg5
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg6
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg7
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg8 main_arg9 main_arg10 main_arg11 main_arg12 main_v13 main_v16
-- ==== Kernel.lean ====
abbrev S100000x128 : Shape := ⟨2, ![100000, 128]⟩
abbrev S300000 : Shape := ⟨1, ![300000]⟩
abbrev S512x128 : Shape := ⟨2, ![512, 128]⟩
abbrev S128 : Shape := ⟨1, ![128]⟩
abbrev S128x128 : Shape := ⟨2, ![128, 128]⟩
abbrev S128x6 : Shape := ⟨2, ![128, 6]⟩
abbrev S6 : Shape := ⟨1, ![6]⟩
abbrev S_ : Shape := ⟨0, ![]⟩
abbrev S301056 : Shape := ⟨1, ![301056]⟩
abbrev S301056x1 : Shape := ⟨2, ![301056, 1]⟩
abbrev S301056x128 : Shape := ⟨2, ![301056, 128]⟩
abbrev S1x128 : Shape := ⟨2, ![1, 128]⟩
abbrev S1x6 : Shape := ⟨2, ![1, 6]⟩
abbrev S301056x6 : Shape := ⟨2, ![301056, 6]⟩
abbrev S2048x128 : Shape := ⟨2, ![2048, 128]⟩
abbrev S2048x6 : Shape := ⟨2, ![2048, 6]⟩
abbrev S300000x6 : Shape := ⟨2, ![300000, 6]⟩

abbrev nBuf : Space → Nat
  | .hbm => 76
  | .vmem => 19
  | .smem => 0
  | _ => 0

abbrev bufTy : (tb : Table) → Fin (tcTables nBuf tb) → BufTy
  | .hbm, ⟨0, _⟩ => ⟨S100000x128, .f32⟩
  | .hbm, ⟨1, _⟩ => ⟨S300000, .i32⟩
  | .hbm, ⟨2, _⟩ => ⟨S300000, .i32⟩
  | .hbm, ⟨3, _⟩ => ⟨S300000, .i32⟩
  | .hbm, ⟨4, _⟩ => ⟨S300000, .i32⟩
  | .hbm, ⟨5, _⟩ => ⟨S512x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x6, .f32⟩
  | .hbm, ⟨12, _⟩ => ⟨S6, .f32⟩
  | .hbm, ⟨13, _⟩ => ⟨S_, .i32⟩
  | .hbm, ⟨14, _⟩ => ⟨S_, .i32⟩
  | .hbm, ⟨15, _⟩ => ⟨S301056, .i32⟩
  | .hbm, ⟨16, _⟩ => ⟨S_, .i32⟩
  | .hbm, ⟨17, _⟩ => ⟨S_, .i32⟩
  | .hbm, ⟨18, _⟩ => ⟨S301056, .i32⟩
  | .hbm, ⟨19, _⟩ => ⟨S_, .i32⟩
  | .hbm, ⟨20, _⟩ => ⟨S_, .i32⟩
  | .hbm, ⟨21, _⟩ => ⟨S301056, .i32⟩
  | .hbm, ⟨22, _⟩ => ⟨S_, .i32⟩
  | .hbm, ⟨23, _⟩ => ⟨S_, .i32⟩
  | .hbm, ⟨24, _⟩ => ⟨S301056, .i32⟩
  | .hbm, ⟨25, _⟩ => ⟨S_, .i32⟩
  | .hbm, ⟨26, _⟩ => ⟨S301056, .i32⟩
  | .hbm, ⟨27, _⟩ => ⟨S301056, .i1⟩
  | .hbm, ⟨28, _⟩ => ⟨S_, .i32⟩
  | .hbm, ⟨29, _⟩ => ⟨S301056, .i32⟩
  | .hbm, ⟨30, _⟩ => ⟨S301056, .i32⟩
  | .hbm, ⟨31, _⟩ => ⟨S301056, .i32⟩
  | .hbm, ⟨32, _⟩ => ⟨S301056x1, .i32⟩
  | .hbm, ⟨33, _⟩ => ⟨S301056x128, .f32⟩
  | .hbm, ⟨34, _⟩ => ⟨S_, .i32⟩
  | .hbm, ⟨35, _⟩ => ⟨S301056, .i32⟩
  | .hbm, ⟨36, _⟩ => ⟨S301056, .i1⟩
  | .hbm, ⟨37, _⟩ => ⟨S_, .i32⟩
  | .hbm, ⟨38, _⟩ => ⟨S301056, .i32⟩
  | .hbm, ⟨39, _⟩ => ⟨S301056, .i32⟩
  | .hbm, ⟨40, _⟩ => ⟨S301056, .i32⟩
  | .hbm, ⟨41, _⟩ => ⟨S301056x1, .i32⟩
  | .hbm, ⟨42, _⟩ => ⟨S301056x128, .f32⟩
  | .hbm, ⟨43, _⟩ => ⟨S_, .i32⟩
  | .hbm, ⟨44, _⟩ => ⟨S301056, .i32⟩
  | .hbm, ⟨45, _⟩ => ⟨S301056, .i1⟩
  | .hbm, ⟨46, _⟩ => ⟨S_, .i32⟩
  | .hbm, ⟨47, _⟩ => ⟨S301056, .i32⟩
  | .hbm, ⟨48, _⟩ => ⟨S301056, .i32⟩
  | .hbm, ⟨49, _⟩ => ⟨S301056, .i32⟩
  | .hbm, ⟨50, _⟩ => ⟨S301056x1, .i32⟩
  | .hbm, ⟨51, _⟩ => ⟨S301056x128, .f32⟩
  | .hbm, ⟨52, _⟩ => ⟨S_, .i32⟩
  | .hbm, ⟨53, _⟩ => ⟨S301056, .i32⟩
  | .hbm, ⟨54, _⟩ => ⟨S301056, .i1⟩
  | .hbm, ⟨55, _⟩ => ⟨S_, .i32⟩
  | .hbm, ⟨56, _⟩ => ⟨S301056, .i32⟩
  | .hbm, ⟨57, _⟩ => ⟨S301056, .i32⟩
  | .hbm, ⟨58, _⟩ => ⟨S301056, .i32⟩
  | .hbm, ⟨59, _⟩ => ⟨S301056x1, .i32⟩
  | .hbm, ⟨60, _⟩ => ⟨S301056x128, .f32⟩
  | .hbm, ⟨61, _⟩ => ⟨S128x128, .f32⟩
  | .hbm, ⟨62, _⟩ => ⟨S128x128, .f32⟩
  | .hbm, ⟨63, _⟩ => ⟨S128x128, .f32⟩
  | .hbm, ⟨64, _⟩ => ⟨S128x128, .f32⟩
  | .hbm, ⟨65, _⟩ => ⟨S128x128, .f32⟩
  | .hbm, ⟨66, _⟩ => ⟨S128x128, .f32⟩
  | .hbm, ⟨67, _⟩ => ⟨S_, .f32⟩
  | .hbm, ⟨68, _⟩ => ⟨S128x128, .f32⟩
  | .hbm, ⟨69, _⟩ => ⟨S128x128, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S1x6, .f32⟩
  | .hbm, ⟨74, _⟩ => ⟨S301056x6, .f32⟩
  | .hbm, ⟨75, _⟩ => ⟨S300000x6, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x6, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x6, .f32⟩
  | .local _ .vmem, ⟨17, _⟩ => ⟨S2048x6, .f32⟩
  | .local _ .vmem, ⟨18, _⟩ => ⟨S2048x6, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_v0 : Ref sig .tc := ⟨.hbm, 15, rfl⟩
abbrev main_c_0 : Ref sig .tc := ⟨.hbm, 16, rfl⟩
abbrev main_call1_v0 : Ref sig .tc := ⟨.hbm, 17, rfl⟩
abbrev main_v1 : Ref sig .tc := ⟨.hbm, 18, rfl⟩
abbrev main_c_1 : Ref sig .tc := ⟨.hbm, 19, rfl⟩
abbrev main_call2_v0 : Ref sig .tc := ⟨.hbm, 20, rfl⟩
abbrev main_v2 : Ref sig .tc := ⟨.hbm, 21, rfl⟩
abbrev main_c_2 : Ref sig .tc := ⟨.hbm, 22, rfl⟩
abbrev main_call3_v0 : Ref sig .tc := ⟨.hbm, 23, rfl⟩
abbrev main_v3 : Ref sig .tc := ⟨.hbm, 24, rfl⟩
abbrev main_c_3 : Ref sig .tc := ⟨.hbm, 25, rfl⟩
abbrev main_v4 : Ref sig .tc := ⟨.hbm, 26, rfl⟩
abbrev main_v5 : Ref sig .tc := ⟨.hbm, 27, rfl⟩
abbrev main_c_4 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_c_5 : Ref sig .tc := ⟨.hbm, 34, rfl⟩
abbrev main_v11 : Ref sig .tc := ⟨.hbm, 35, rfl⟩
abbrev main_v12 : Ref sig .tc := ⟨.hbm, 36, rfl⟩
abbrev main_c_6 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_c_7 : Ref sig .tc := ⟨.hbm, 43, rfl⟩
abbrev main_v18 : Ref sig .tc := ⟨.hbm, 44, rfl⟩
abbrev main_v19 : Ref sig .tc := ⟨.hbm, 45, rfl⟩
abbrev main_c_8 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_c_9 : Ref sig .tc := ⟨.hbm, 52, rfl⟩
abbrev main_v25 : Ref sig .tc := ⟨.hbm, 53, rfl⟩
abbrev main_v26 : Ref sig .tc := ⟨.hbm, 54, rfl⟩
abbrev main_c_10 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![147], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x6 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x6 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2048x6 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  pads_S300000_S301056_010560 : S300000.Pads (![0] : Fin 1 → Nat) ![1056] ![0] S301056
  h_S_ : 0 < S_.numel
  bcast_S_S301056 : S_.BroadcastsInDim S301056 (![] : Fin 0 → Fin S301056.rank)
  bcast_S301056_S301056x1_0 : S301056.BroadcastsInDim S301056x1 (![0] : Fin 1 → Fin S301056x1.rank)
  slices_S512x128_S128x128_0_0 : S512x128.Slices ![0, 0] S128x128
  slices_S512x128_S128x128_128_0 : S512x128.Slices ![128, 0] S128x128
  slices_S512x128_S128x128_256_0 : S512x128.Slices ![256, 0] S128x128
  slices_S512x128_S128x128_384_0 : S512x128.Slices ![384, 0] S128x128
  bcast_S_S128x128 : S_.BroadcastsInDim S128x128 (![] : Fin 0 → Fin S128x128.rank)
  shapeCasts_S128_S1x128 : S128.ShapeCasts S1x128
  shapeCasts_S6_S1x6 : S6.ShapeCasts S1x6
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x6_S128x6_0_0 : ∀ a, (![0, 0] : Fin 2 → Nat) a + S128x6.size a ≤ S128x6.size a
  h_S128x6 : 0 < S128x6.numel
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S2048x6 : S1x6.Broadcasts S2048x6
  inb_S2048x6_S2048x6_0_0 : ∀ a, (![0, 0] : Fin 2 → Nat) a + S2048x6.size a ≤ S2048x6.size a
  h_S2048x6 : 0 < S2048x6.numel
  slices_S301056x6_S300000x6_0_0 : S301056x6.Slices ![0, 0] S300000x6
  gather_S100000x128_S301056x1_S301056x128_1_0_n_n_0_1_1128_wf : GatherDims.WF S100000x128 S301056x1 S301056x128 [1] [0] [] [0] [] 1 ![1, 128]
  dot_S2048x128_S128x128_S2048x128_1_0_0_1_n_n_wf : DotDims.WF S2048x128 S128x128 S2048x128 [1] [0] [0] [1] [] []
  dot_S2048x128_S128x6_S2048x6_1_0_0_1_n_n_wf : DotDims.WF S2048x128 S128x6 S2048x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S301056x128.size a
  hwx0_0 : ∀ i : grid0.Coords, EltTy.bits .f32 = 32 ∨ (Rect.block (s := S301056x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S301056x128.size a
  hwx0_1 : ∀ i : grid0.Coords, EltTy.bits .f32 = 32 ∨ (Rect.block (s := S301056x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S301056x128.size a
  hwx0_2 : ∀ i : grid0.Coords, EltTy.bits .f32 = 32 ∨ (Rect.block (s := S301056x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S301056x128.size a
  hwx0_3 : ∀ i : grid0.Coords, EltTy.bits .f32 = 32 ∨ (Rect.block (s := S301056x128) S2048x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x6.size a ≤ S128x6.size a
  hwx0_8 : ∀ i : grid0.Coords, EltTy.bits .f32 = 32 ∨ (Rect.block (s := S128x6) S128x6.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x6.size a ≤ S1x6.size a
  hwx0_12 : ∀ i : grid0.Coords, EltTy.bits .f32 = 32 ∨ (Rect.block (s := S1x6) S1x6.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2048x6.size a ≤ S301056x6.size a
  hwx0_13 : ∀ i : grid0.Coords, EltTy.bits .f32 = 32 ∨ (Rect.block (s := S301056x6) S2048x6.size (cc0_transform_13 i) (hinb0_13 i)).WholeWords (EltTy.packing .f32)

variable [Facts₀]

def gather_S100000x128_S301056x1_S301056x128_1_0_n_n_0_1_1128 : GatherDims S100000x128 S301056x1 S301056x128 where
  offsetDims := [1]
  collapsedSliceDims := [0]
  operandBatchingDims := []
  startIndicesBatchingDims := []
  startIndexMap := [0]
  indexVectorDim := 1
  sliceSizes := ![1, 128]
  wf := gather_S100000x128_S301056x1_S301056x128_1_0_n_n_0_1_1128_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x6_S2048x6_1_0_0_1_n_n : DotDims S2048x128 S128x6 S2048x6 where
  lhsContracting := [1]
  rhsContracting := [0]
  lhsNonContracting := [0]
  rhsNonContracting := [1]
  lhsBatch := []
  rhsBatch := []
  wf := dot_S2048x128_S128x6_S2048x6_1_0_0_1_n_n_wf

abbrev win0_0 : Pipeline.Window sig grid0 :=
  Pipeline.Window.ofSpec (Memref.whole main_v10) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v31) S2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v37) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v39) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg11) S128x6.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v40) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v41) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v42) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v43) S1x6.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v44) S2048x6.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S100000x128 : Shape := ⟨2, ![100000, 128]⟩
abbrev S300000 : Shape := ⟨1, ![300000]⟩
abbrev S512x128 : Shape := ⟨2, ![512, 128]⟩
abbrev S128 : Shape := ⟨1, ![128]⟩
abbrev S128x128 : Shape := ⟨2, ![128, 128]⟩
abbrev S128x6 : Shape := ⟨2, ![128, 6]⟩
abbrev S6 : Shape := ⟨1, ![6]⟩
abbrev S_ : Shape := ⟨0, ![]⟩
abbrev S300000x1 : Shape := ⟨2, ![300000, 1]⟩
abbrev S300000x128 : Shape := ⟨2, ![300000, 128]⟩
abbrev S300000x512 : Shape := ⟨2, ![300000, 512]⟩
abbrev S1x128 : Shape := ⟨2, ![1, 128]⟩
abbrev S300000x6 : Shape := ⟨2, ![300000, 6]⟩
abbrev S1x6 : Shape := ⟨2, ![1, 6]⟩

abbrev nBuf : Space → Nat
  | .hbm => 79
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S300000, .i32⟩
  | .hbm, ⟨2, _⟩ => ⟨S300000, .i32⟩
  | .hbm, ⟨3, _⟩ => ⟨S300000, .i32⟩
  | .hbm, ⟨4, _⟩ => ⟨S300000, .i32⟩
  | .hbm, ⟨5, _⟩ => ⟨S512x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x6, .f32⟩
  | .hbm, ⟨12, _⟩ => ⟨S6, .f32⟩
  | .hbm, ⟨13, _⟩ => ⟨S_, .i32⟩
  | .hbm, ⟨14, _⟩ => ⟨S300000, .i32⟩
  | .hbm, ⟨15, _⟩ => ⟨S300000, .i1⟩
  | .hbm, ⟨16, _⟩ => ⟨S_, .i32⟩
  | .hbm, ⟨17, _⟩ => ⟨S300000, .i32⟩
  | .hbm, ⟨18, _⟩ => ⟨S300000, .i32⟩
  | .hbm, ⟨19, _⟩ => ⟨S300000, .i32⟩
  | .hbm, ⟨20, _⟩ => ⟨S300000x1, .i32⟩
  | .hbm, ⟨21, _⟩ => ⟨S300000x128, .f32⟩
  | .hbm, ⟨22, _⟩ => ⟨S_, .i32⟩
  | .hbm, ⟨23, _⟩ => ⟨S300000, .i32⟩
  | .hbm, ⟨24, _⟩ => ⟨S300000, .i1⟩
  | .hbm, ⟨25, _⟩ => ⟨S_, .i32⟩
  | .hbm, ⟨26, _⟩ => ⟨S300000, .i32⟩
  | .hbm, ⟨27, _⟩ => ⟨S300000, .i32⟩
  | .hbm, ⟨28, _⟩ => ⟨S300000, .i32⟩
  | .hbm, ⟨29, _⟩ => ⟨S300000x1, .i32⟩
  | .hbm, ⟨30, _⟩ => ⟨S300000x128, .f32⟩
  | .hbm, ⟨31, _⟩ => ⟨S_, .i32⟩
  | .hbm, ⟨32, _⟩ => ⟨S300000, .i32⟩
  | .hbm, ⟨33, _⟩ => ⟨S300000, .i1⟩
  | .hbm, ⟨34, _⟩ => ⟨S_, .i32⟩
  | .hbm, ⟨35, _⟩ => ⟨S300000, .i32⟩
  | .hbm, ⟨36, _⟩ => ⟨S300000, .i32⟩
  | .hbm, ⟨37, _⟩ => ⟨S300000, .i32⟩
  | .hbm, ⟨38, _⟩ => ⟨S300000x1, .i32⟩
  | .hbm, ⟨39, _⟩ => ⟨S300000x128, .f32⟩
  | .hbm, ⟨40, _⟩ => ⟨S_, .i32⟩
  | .hbm, ⟨41, _⟩ => ⟨S300000, .i32⟩
  | .hbm, ⟨42, _⟩ => ⟨S300000, .i1⟩
  | .hbm, ⟨43, _⟩ => ⟨S_, .i32⟩
  | .hbm, ⟨44, _⟩ => ⟨S300000, .i32⟩
  | .hbm, ⟨45, _⟩ => ⟨S300000, .i32⟩
  | .hbm, ⟨46, _⟩ => ⟨S300000, .i32⟩
  | .hbm, ⟨47, _⟩ => ⟨S300000x1, .i32⟩
  | .hbm, ⟨48, _⟩ => ⟨S300000x128, .f32⟩
  | .hbm, ⟨49, _⟩ => ⟨S300000x512, .f32⟩
  | .hbm, ⟨50, _⟩ => ⟨S300000x512, .f32⟩
  | .hbm, ⟨51, _⟩ => ⟨S300000x512, .f32⟩
  | .hbm, ⟨52, _⟩ => ⟨S300000x512, .f32⟩
  | .hbm, ⟨53, _⟩ => ⟨S300000x512, .f32⟩
  | .hbm, ⟨54, _⟩ => ⟨S300000x128, .f32⟩
  | .hbm, ⟨55, _⟩ => ⟨S1x128, .f32⟩
  | .hbm, ⟨56, _⟩ => ⟨S300000x128, .f32⟩
  | .hbm, ⟨57, _⟩ => ⟨S300000x128, .f32⟩
  | .hbm, ⟨58, _⟩ => ⟨S_, .f32⟩
  | .hbm, ⟨59, _⟩ => ⟨S300000x128, .f32⟩
  | .hbm, ⟨60, _⟩ => ⟨S300000x128, .f32⟩
  | .hbm, ⟨61, _⟩ => ⟨S300000x128, .f32⟩
  | .hbm, ⟨62, _⟩ => ⟨S1x128, .f32⟩
  | .hbm, ⟨63, _⟩ => ⟨S300000x128, .f32⟩
  | .hbm, ⟨64, _⟩ => ⟨S300000x128, .f32⟩
  | .hbm, ⟨65, _⟩ => ⟨S_, .f32⟩
  | .hbm, ⟨66, _⟩ => ⟨S300000x128, .f32⟩
  | .hbm, ⟨67, _⟩ => ⟨S300000x128, .f32⟩
  | .hbm, ⟨68, _⟩ => ⟨S300000x128, .f32⟩
  | .hbm, ⟨69, _⟩ => ⟨S1x128, .f32⟩
  | .hbm, ⟨70, _⟩ => ⟨S300000x128, .f32⟩
  | .hbm, ⟨71, _⟩ => ⟨S300000x128, .f32⟩
  | .hbm, ⟨72, _⟩ => ⟨S_, .f32⟩
  | .hbm, ⟨73, _⟩ => ⟨S300000x128, .f32⟩
  | .hbm, ⟨74, _⟩ => ⟨S300000x128, .f32⟩
  | .hbm, ⟨75, _⟩ => ⟨S300000x6, .f32⟩
  | .hbm, ⟨76, _⟩ => ⟨S1x6, .f32⟩
  | .hbm, ⟨77, _⟩ => ⟨S300000x6, .f32⟩
  | .hbm, ⟨78, _⟩ => ⟨S300000x6, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_call0_cst : Ref sig .tc := ⟨.hbm, 58, rfl⟩
abbrev main_call0_v0 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_call1_cst : Ref sig .tc := ⟨.hbm, 65, rfl⟩
abbrev main_call1_v0 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call2_cst : Ref sig .tc := ⟨.hbm, 72, rfl⟩
abbrev main_call2_v0 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩

abbrev nD : Nat := 1
abbrev τ : Topo := Topo.v7x

variable {F : FTy → Type} [FloatOps F]

class Facts₀ : Prop where
  bcast_S_S300000 : S_.BroadcastsInDim S300000 (![] : Fin 0 → Fin S300000.rank)
  bcast_S300000_S300000x1_0 : S300000.BroadcastsInDim S300000x1 (![0] : Fin 1 → Fin S300000x1.rank)
  concatenates_S300000x128_S300000x128_S300000x128_S300000x128_S300000x512_d1 : Shape.Concatenates [S300000x128, S300000x128, S300000x128, S300000x128] S300000x512 1
  bcast_S128_S1x128_1 : S128.BroadcastsInDim S1x128 (![1] : Fin 1 → Fin S1x128.rank)
  bcast_S1x128_S300000x128_0_1 : S1x128.BroadcastsInDim S300000x128 (![0, 1] : Fin 2 → Fin S300000x128.rank)
  bcast_S_S300000x128 : S_.BroadcastsInDim S300000x128 (![] : Fin 0 → Fin S300000x128.rank)
  bcast_S6_S1x6_1 : S6.BroadcastsInDim S1x6 (![1] : Fin 1 → Fin S1x6.rank)
  bcast_S1x6_S300000x6_0_1 : S1x6.BroadcastsInDim S300000x6 (![0, 1] : Fin 2 → Fin S300000x6.rank)
  gather_S100000x128_S300000x1_S300000x128_1_0_n_n_0_1_1128_wf : GatherDims.WF S100000x128 S300000x1 S300000x128 [1] [0] [] [0] [] 1 ![1, 128]
  dot_S300000x512_S512x128_S300000x128_1_0_0_1_n_n_wf : DotDims.WF S300000x512 S512x128 S300000x128 [1] [0] [0] [1] [] []
  dot_S300000x128_S128x128_S300000x128_1_0_0_1_n_n_wf : DotDims.WF S300000x128 S128x128 S300000x128 [1] [0] [0] [1] [] []
  dot_S300000x128_S128x6_S300000x6_1_0_0_1_n_n_wf : DotDims.WF S300000x128 S128x6 S300000x6 [1] [0] [0] [1] [] []

variable [Facts₀]

def gather_S100000x128_S300000x1_S300000x128_1_0_n_n_0_1_1128 : GatherDims S100000x128 S300000x1 S300000x128 where
  offsetDims := [1]
  collapsedSliceDims := [0]
  operandBatchingDims := []
  startIndicesBatchingDims := []
  startIndexMap := [0]
  indexVectorDim := 1
  sliceSizes := ![1, 128]
  wf := gather_S100000x128_S300000x1_S300000x128_1_0_n_n_0_1_1128_wf
def dot_S300000x512_S512x128_S300000x128_1_0_0_1_n_n : DotDims S300000x512 S512x128 S300000x128 where
  lhsContracting := [1]
  rhsContracting := [0]
  lhsNonContracting := [0]
  rhsNonContracting := [1]
  lhsBatch := []
  rhsBatch := []
  wf := dot_S300000x512_S512x128_S300000x128_1_0_0_1_n_n_wf
def dot_S300000x128_S128x128_S300000x128_1_0_0_1_n_n : DotDims S300000x128 S128x128 S300000x128 where
  lhsContracting := [1]
  rhsContracting := [0]
  lhsNonContracting := [0]
  rhsNonContracting := [1]
  lhsBatch := []
  rhsBatch := []
  wf := dot_S300000x128_S128x128_S300000x128_1_0_0_1_n_n_wf
def dot_S300000x128_S128x6_S300000x6_1_0_0_1_n_n : DotDims S300000x128 S128x6 S300000x6 where
  lhsContracting := [1]
  rhsContracting := [0]
  lhsNonContracting := [0]
  rhsNonContracting := [1]
  lhsBatch := []
  rhsBatch := []
  wf := dot_S300000x128_S128x6_S300000x6_1_0_0_1_n_n_wf

class Facts : Prop extends Facts₀ where

variable [Facts]
-- ==== Proof.LibSumBlocks.lean ====
/-
  A sum over `n * b` consecutive indices is the sum, over `n` blocks, of the sums over the `b` indices of each
  block: index `e` is `b * j + k` for exactly one block `j < n` and one offset `k < b`. This holds in every additive
  commutative monoid — only commutativity and associativity of the addition are used — so in particular on the
  extended reals, where no finiteness is needed.
-/
import Mathlib.Algebra.BigOperators.Fin
import Mathlib.Logic.Equiv.Fin.Basic

namespace SumBlocks

open Finset

/-- `∑_{e < n·b} f e = ∑_{j < n} ∑_{k < b} f (b·j + k)`: the indices below `n · b` are the pairs (block, offset). -/
theorem sum_mul_eq_sum_blocks {M : Type*} [AddCommMonoid M] (n b : ℕ) (f : ℕ → M) :
    ∑ e : Fin (n * b), f e.val = ∑ j : Fin n, ∑ k : Fin b, f (b * j.val + k.val) := by
  rw [← (finProdFinEquiv (m := n) (n := b)).sum_comp (fun e : Fin (n * b) => f e.val), Fintype.sum_prod_type]
  refine Finset.sum_congr rfl fun j _ => Finset.sum_congr rfl fun k _ => ?_
  exact congrArg f (Nat.add_comm _ _)

/-- Three blocks, with the left-nested grouping in which a running total takes them up one after the other. -/
theorem sum_three_blocks {M : Type*} [AddCommMonoid M] (b : ℕ) (f : ℕ → M) :
    ∑ e : Fin (3 * b), f e.val
      = ((∑ k : Fin b, f (b * 0 + k.val)) + ∑ k : Fin b, f (b * 1 + k.val)) + ∑ k : Fin b, f (b * 2 + k.val) := by
  rw [sum_mul_eq_sum_blocks 3 b f, Fin.sum_univ_three]
  rfl

end SumBlocks
-- ==== Proof.Spec.lean ====
/-
  The function of one row that both programs compute, on the extended reals.

  A row of the result depends on four gathered rows g0 g1 g2 g3 of the table (128 entries each). The pooled row has
  512 entries in four blocks of 128: block 0 is (g0 + g2) + g3, block 1 is (g1 + g1) + g1, block 2 is (g2 + g3) + g0
  and block 3 is (g3 + g0) + g2 — the sum of the three concatenations [g0 g1 g2 g3], [g2 g1 g3 g0], [g3 g1 g0 g2].
  The first layer is the pooled row against the 512 x 128 weight W plus the bias; then a rectifier, two more affine
  layers each followed by a rectifier, and an affine head with 6 outputs.

  Two laws are proved here. A sum over 512 consecutive indices is the sum of the four sums over its blocks of 128
  (any additive commutative monoid). And, at REAL entries, the first layer written with one combined weight for the
  blocks 0, 2, 3 — whose pooled entries agree up to the order of a three-term sum — and three times the weight of
  block 1 against g1 alone, equals the first layer written block by block: distributivity of the product over the
  sum, which on the extended reals needs the entries to be real.
-/
import Idealize.ShloMosaic.PureOps.Ideal
import proofs.«140650_j55198919688258_1_alg».proof.Proof.LibSumBlocks

noncomputable section

namespace Cert.Proof.Mlp

open Finset Idealize.ShloMosaic

/-- One affine layer on a row: entry j is (sum over k of x k * W k j) + b j. -/
def dense {K n : ℕ} (x : Fin K → EReal) (W : Fin K → Fin n → EReal) (b : Fin n → EReal) : Fin n → EReal :=
  fun j => (∑ k : Fin K, x k * W k j) + b j

/-- The rectifier against the threshold z: entry j is max (x j) z. -/
def relu {n : ℕ} (z : EReal) (x : Fin n → EReal) : Fin n → EReal := fun j => max (x j) z

/-- Everything after the first layer: rectifier, affine, rectifier, affine, rectifier, affine head. -/
def head (z : EReal) (pre : Fin 128 → EReal) (W2 : Fin 128 → Fin 128 → EReal) (b2 : Fin 128 → EReal)
    (W3 : Fin 128 → Fin 128 → EReal) (b3 : Fin 128 → EReal) (Wo : Fin 128 → Fin 6 → EReal) (bo : Fin 6 → EReal) :
    Fin 6 → EReal :=
  dense (relu z (dense (relu z (dense (relu z pre) W2 b2)) W3 b3)) Wo bo

/-- Index k of block q among 512 indices cut into four blocks of 128. -/
def blk (q : Fin 4) (k : Fin 128) : Fin 512 := ⟨128 * q.val + k.val, by have := q.isLt; have := k.isLt; omega⟩

theorem blk_val (q : Fin 4) (k : Fin 128) : (blk q k).val = 128 * q.val + k.val := rfl

/-- The first layer block by block: the four pooled blocks, each against its block of rows of W, plus the bias. -/
def pre1 (g0 g1 g2 g3 : Fin 128 → EReal) (W : Fin 512 → Fin 128 → EReal) (b : Fin 128 → EReal) : Fin 128 → EReal :=
  fun j => ((((∑ k : Fin 128, ((g0 k + g2 k) + g3 k) * W (blk 0 k) j)
      + ∑ k : Fin 128, ((g1 k + g1 k) + g1 k) * W (blk 1 k) j)
      + ∑ k : Fin 128, ((g2 k + g3 k) + g0 k) * W (blk 2 k) j)
      + ∑ k : Fin 128, ((g3 k + g0 k) + g2 k) * W (blk 3 k) j) + b j

/-- A sum over 512 indices is the sum of the sums over its four blocks of 128. -/
theorem sum_512_blocks {M : Type*} [AddCommMonoid M] (f : Fin 512 → M) :
    ∑ e : Fin 512, f e
      = (((∑ k : Fin 128, f (blk 0 k)) + ∑ k : Fin 128, f (blk 1 k)) + ∑ k : Fin 128, f (blk 2 k))
        + ∑ k : Fin 128, f (blk 3 k) := by
  have h := SumBlocks.sum_mul_eq_sum_blocks 4 128 (fun e : ℕ => if h : e < 512 then f ⟨e, h⟩ else 0)
  have hl : ∑ e : Fin (4 * 128), (fun e : ℕ => if h : e < 512 then f ⟨e, h⟩ else 0) e.val = ∑ e : Fin 512, f e :=
    Finset.sum_congr rfl fun e _ => dif_pos e.isLt
  rw [← hl, h, Fin.sum_univ_four]
  have hb : ∀ (q : Fin 4) (k : Fin 128),
      (fun e : ℕ => if h : e < 512 then f ⟨e, h⟩ else 0) (128 * q.val + k.val) = f (blk q k) := fun q k => by
    have hlt : 128 * q.val + k.val < 512 := by have := q.isLt; have := k.isLt; omega
    exact dif_pos hlt
  rw [Finset.sum_congr rfl fun k _ => hb 0 k, Finset.sum_congr rfl fun k _ => hb 1 k,
    Finset.sum_congr rfl fun k _ => hb 2 k, Finset.sum_congr rfl fun k _ => hb 3 k]

/-- The first layer with one combined weight for blocks 0, 2, 3 and three times block 1, at real entries, is the
    first layer block by block. -/
theorem combined_eq_pre1 (g0 g1 g2 g3 : Fin 128 → EReal) (W : Fin 512 → Fin 128 → EReal) (b : Fin 128 → EReal)
    (three : EReal) (h3 : three = ((3 : ℝ) : EReal))
    (h0 : ∀ k, ∃ r : ℝ, g0 k = (r : EReal)) (h1 : ∀ k, ∃ r : ℝ, g1 k = (r : EReal))
    (h2 : ∀ k, ∃ r : ℝ, g2 k = (r : EReal)) (h3' : ∀ k, ∃ r : ℝ, g3 k = (r : EReal))
    (hW : ∀ e j, ∃ r : ℝ, W e j = (r : EReal)) (j : Fin 128) :
    ((∑ k : Fin 128, ((g0 k + g2 k) + g3 k) * ((W (blk 0 k) j + W (blk 2 k) j) + W (blk 3 k) j))
        + ∑ k : Fin 128, g1 k * (three * W (blk 1 k) j)) + b j
      = pre1 g0 g1 g2 g3 W b j := by
  unfold pre1
  congr 1
  rw [← Finset.sum_add_distrib, ← Finset.sum_add_distrib, ← Finset.sum_add_distrib, ← Finset.sum_add_distrib]
  refine Finset.sum_congr rfl fun k _ => ?_
  obtain ⟨a0, e0⟩ := h0 k
  obtain ⟨a1, e1⟩ := h1 k
  obtain ⟨a2, e2⟩ := h2 k
  obtain ⟨a3, e3⟩ := h3' k
  obtain ⟨w0, f0⟩ := hW (blk 0 k) j
  obtain ⟨w1, f1⟩ := hW (blk 1 k) j
  obtain ⟨w2, f2⟩ := hW (blk 2 k) j
  obtain ⟨w3, f3⟩ := hW (blk 3 k) j
  rw [e0, e1, e2, e3, f0, f1, f2, f3, h3]
  simp only [← EReal.coe_add, ← EReal.coe_mul]
  exact congrArg _ (by ring)

end Cert.Proof.Mlp

end
-- ==== Proof.Target.lean ====
/-
  The result both programs compute, as one function of the argument arrays.

  An index i into the table of 100000 rows is first normalised as jnp indexing does (a negative i stands for
  i + 100000) and then, by the gather, read as a signed integer and clamped into [0, 99999]. Row r of the result
  depends on the four table rows named by the four index vectors at r, through the layers of the specification.
-/
import proofs.«140650_j55198919688258_1_alg».proof.Proof.Spec
import Idealize.ShloMosaic.Lib.ValueIdx

noncomputable section

namespace Cert.Proof.Target

open Idealize.ShloMosaic Idealize.ShloMosaic.ValueIdx Cert.Proof

/-- The index as jnp indexing normalises it: i + 100000 when i is negative (as a signed 32-bit integer), else i. -/
def nidx (i : BitVec 32) : BitVec 32 :=
  Scalar.select (IntOp.cmpi .slt i 0#32) (IntOp.addi i 100000#32) i

/-- The table row a (normalised, clamped) index names. -/
def grow (h : (⟨2, ![100000, 128]⟩ : Shape).Idx → EReal) (i : BitVec 32) : Fin 128 → EReal :=
  fun c => h (ix2 ⟨min (nidx i).toInt.toNat (100000 - 1), by omega⟩ c)

/-- The threshold of the rectifiers: what the f32 pattern of +0.0 denotes. -/
abbrev zero : EReal := Ideal.ofBits .f32 0x00000000#32

/-- The first layer of row r: the four gathered rows pooled against the 512 x 128 weight, plus the bias. -/
def first (h : (⟨2, ![100000, 128]⟩ : Shape).Idx → EReal)
    (i0 i1 i2 i3 : (⟨1, ![300000]⟩ : Shape).Idx → BitVec 32)
    (W1 : (⟨2, ![512, 128]⟩ : Shape).Idx → EReal) (b1 : (⟨1, ![128]⟩ : Shape).Idx → EReal) (r : Fin 300000) :
    Fin 128 → EReal :=
  Mlp.pre1 (grow h (i0 (ix1 r))) (grow h (i1 (ix1 r))) (grow h (i2 (ix1 r))) (grow h (i3 (ix1 r)))
    (fun e j => W1 (ix2 e j)) (fun j => b1 (ix1 j))

/-- The whole result, 300000 x 6. -/
def G (h : (⟨2, ![100000, 128]⟩ : Shape).Idx → EReal)
    (i0 i1 i2 i3 : (⟨1, ![300000]⟩ : Shape).Idx → BitVec 32)
    (W1 : (⟨2, ![512, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 128]⟩ : Shape).Idx → EReal) (b3 : (⟨1, ![128]⟩ : Shape).Idx → EReal)
    (Wo : (⟨2, ![128, 6]⟩ : Shape).Idx → EReal) (bo : (⟨1, ![6]⟩ : Shape).Idx → EReal) :
    (⟨2, ![300000, 6]⟩ : Shape).Idx → EReal :=
  fun y => Mlp.head zero (first h i0 i1 i2 i3 W1 b1 (y 0))
    (fun k j => W2 (ix2 k j)) (fun j => b2 (ix1 j)) (fun k j => W3 (ix2 k j)) (fun j => b3 (ix1 j))
    (fun k j => Wo (ix2 k j)) (fun j => bo (ix1 j)) (y 1)

end Cert.Proof.Target

end
-- ==== Proof.KernelPayload.lean ====
/-
  The kernel body's arithmetic at one entry of its output block. A grid point loads four 2048 x 128 blocks of gathered
  rows (a0, a2, a3 and a1), two combined 128 x 128 weights (ca, cb), the weights of layers two and three and of the
  head, and the four biases as 1 x n rows; it stores one 2048 x 6 block. Entry (p, q) of that block depends on row p
  of the four row blocks only: the first layer is the matrix product of (a0 + a2) + a3 with ca plus the product of
  a1 with cb plus the bias, and the rest is the rectifier-affine chain of the specification. A matrix product into a
  zero accumulator is, entry by entry, the sum over the contracted index of the products; a change of float format
  is the identity on the extended reals.
-/
import proofs.«140650_j55198919688258_1_alg».proof.Proof.Gen.KernelIdeal.Skeleton
import proofs.«140650_j55198919688258_1_alg».proof.Proof.Target
import Idealize.ShloMosaic.Lib.ValueIdx
import Idealize.ShloMosaic.Lib.ValueLayout
import Idealize.ShloMosaic.Lib.Pipeline.Value
import Idealize.ShloMosaic.PureOps.Ideal.Laws

noncomputable section

namespace Cert.Proof.KernelPayload

open Finset Idealize.ShloMosaic Idealize.ShloMosaic.ValueIdx Cert.KernelIdeal Cert.KernelIdeal.Gen Cert.Proof

variable [Cert.KernelIdeal.Facts]

/-- The 2048 x 128 by 128 x 128 product into a zero accumulator at (p, j): the sum over k of lhs (p, k) * rhs (k, j). -/
theorem mm128_apply {φ₁ φ₂ : FTy} (lhs : FVec Ideal S2048x128 φ₁) (rhs : FVec Ideal S128x128 φ₂) (p : Fin 2048) (j : Fin 128) :
    matmul dot_S2048x128_S128x128_S2048x128_1_0_0_1_n_n none lhs rhs (constant S2048x128 .f32 0x00000000#32) (ix2 p j)
      = ∑ k : Fin 128, lhs (ix2 p k) * rhs (ix2 k j) := by
  show FloatOps.matmul dot_S2048x128_S128x128_S2048x128_1_0_0_1_n_n none lhs rhs (constant S2048x128 .f32 0x00000000#32) (ix2 p j) = _
  rw [Ideal.matmul_constant_zero_apply, ← Equiv.sum_comp (ValueIdx.contrEquiv1 dot_S2048x128_S128x128_S2048x128_1_0_0_1_n_n 128 rfl rfl).symm]
  refine Finset.sum_congr rfl fun k _ => ?_
  have hk := ValueIdx.contrEquiv1_symm_val dot_S2048x128_S128x128_S2048x128_1_0_0_1_n_n 128 rfl rfl k
  have el : dot_S2048x128_S128x128_S2048x128_1_0_0_1_n_n.lhsIdx (ix2 p j) ((ValueIdx.contrEquiv1 dot_S2048x128_S128x128_S2048x128_1_0_0_1_n_n 128 rfl rfl).symm k) = ix2 p k := funext fun a => Fin.ext (by
    match a with
    | ⟨0, _⟩ =>
      show (dot_S2048x128_S128x128_S2048x128_1_0_0_1_n_n.lhsIdx (ix2 p j) _ 0).val = p.val
      unfold DotDims.lhsIdx
      rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
      rfl
    | ⟨1, _⟩ => exact (dot_S2048x128_S128x128_S2048x128_1_0_0_1_n_n.lhsIdx_val_of_single rfl (ix2 p j) _).trans hk)
  have er : dot_S2048x128_S128x128_S2048x128_1_0_0_1_n_n.rhsIdx (ix2 p j) ((ValueIdx.contrEquiv1 dot_S2048x128_S128x128_S2048x128_1_0_0_1_n_n 128 rfl rfl).symm k) = ix2 k j := funext fun a => Fin.ext (by
    match a with
    | ⟨0, _⟩ => exact (dot_S2048x128_S128x128_S2048x128_1_0_0_1_n_n.rhsIdx_val_of_single rfl (ix2 p j) _).trans hk
    | ⟨1, _⟩ =>
      show (dot_S2048x128_S128x128_S2048x128_1_0_0_1_n_n.rhsIdx (ix2 p j) _ 1).val = j.val
      unfold DotDims.rhsIdx
      rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
      rfl)
  rw [el, er]

/-- The 2048 x 128 by 128 x 6 product into a zero accumulator at (p, q). -/
theorem mm6_apply {φ₁ φ₂ : FTy} (lhs : FVec Ideal S2048x128 φ₁) (rhs : FVec Ideal S128x6 φ₂) (p : Fin 2048) (q : Fin 6) :
    matmul dot_S2048x128_S128x6_S2048x6_1_0_0_1_n_n none lhs rhs (constant S2048x6 .f32 0x00000000#32) (ix2 p q)
      = ∑ k : Fin 128, lhs (ix2 p k) * rhs (ix2 k q) := by
  show FloatOps.matmul dot_S2048x128_S128x6_S2048x6_1_0_0_1_n_n none lhs rhs (constant S2048x6 .f32 0x00000000#32) (ix2 p q) = _
  rw [Ideal.matmul_constant_zero_apply, ← Equiv.sum_comp (ValueIdx.contrEquiv1 dot_S2048x128_S128x6_S2048x6_1_0_0_1_n_n 128 rfl rfl).symm]
  refine Finset.sum_congr rfl fun k _ => ?_
  have hk := ValueIdx.contrEquiv1_symm_val dot_S2048x128_S128x6_S2048x6_1_0_0_1_n_n 128 rfl rfl k
  have el : dot_S2048x128_S128x6_S2048x6_1_0_0_1_n_n.lhsIdx (ix2 p q) ((ValueIdx.contrEquiv1 dot_S2048x128_S128x6_S2048x6_1_0_0_1_n_n 128 rfl rfl).symm k) = ix2 p k := funext fun a => Fin.ext (by
    match a with
    | ⟨0, _⟩ =>
      show (dot_S2048x128_S128x6_S2048x6_1_0_0_1_n_n.lhsIdx (ix2 p q) _ 0).val = p.val
      unfold DotDims.lhsIdx
      rw [dif_neg (show ¬(0 : Fin S2048x128.rank) ∈ dot_S2048x128_S128x6_S2048x6_1_0_0_1_n_n.lhsBatch by decide), dif_pos (show (0 : Fin S2048x128.rank) ∈ dot_S2048x128_S128x6_S2048x6_1_0_0_1_n_n.lhsNonContracting by decide)]
      rfl
    | ⟨1, _⟩ => exact (dot_S2048x128_S128x6_S2048x6_1_0_0_1_n_n.lhsIdx_val_of_single rfl (ix2 p q) _).trans hk)
  have er : dot_S2048x128_S128x6_S2048x6_1_0_0_1_n_n.rhsIdx (ix2 p q) ((ValueIdx.contrEquiv1 dot_S2048x128_S128x6_S2048x6_1_0_0_1_n_n 128 rfl rfl).symm k) = ix2 k q := funext fun a => Fin.ext (by
    match a with
    | ⟨0, _⟩ => exact (dot_S2048x128_S128x6_S2048x6_1_0_0_1_n_n.rhsIdx_val_of_single rfl (ix2 p q) _).trans hk
    | ⟨1, _⟩ =>
      show (dot_S2048x128_S128x6_S2048x6_1_0_0_1_n_n.rhsIdx (ix2 p q) _ 1).val = q.val
      unfold DotDims.rhsIdx
      rw [dif_neg (show ¬(1 : Fin S128x6.rank) ∈ dot_S2048x128_S128x6_S2048x6_1_0_0_1_n_n.rhsBatch by decide), dif_pos (show (1 : Fin S128x6.rank) ∈ dot_S2048x128_S128x6_S2048x6_1_0_0_1_n_n.rhsNonContracting by decide)]
      rfl)
  rw [el, er]

/-- A bias row 1 x 128 broadcast down 2048 rows reads, at (p, j), its entry (0, j). -/
theorem bias128_apply (b : FVec Ideal S1x128 .f32) (h2 : S1x128.Broadcasts S2048x128)
    (p : Fin 2048) (j : Fin 128) :
    broadcastTo S2048x128 b h2 (ix2 p j) = b (ix2 (0 : Fin 1) j) :=
  broadcastTo_1b_ab_apply b h2 p j

/-- The same for the head's bias row 1 x 6. -/
theorem bias6_apply (b : FVec Ideal S1x6 .f32) (h2 : S1x6.Broadcasts S2048x6)
    (p : Fin 2048) (q : Fin 6) :
    broadcastTo S2048x6 b h2 (ix2 p q) = b (ix2 (0 : Fin 1) q) :=
  broadcastTo_1b_ab_apply b h2 p q

/-- The first layer as the body computes it at row p, from the row blocks and the two combined weights. -/
def firstOf (a0 a2 a3 a1 : Vec Ideal S2048x128 .f32) (ca cb : Vec Ideal S128x128 .f32) (b1 : Vec Ideal S1x128 .f32)
    (p : Fin 2048) : Fin 128 → EReal :=
  fun j => ((∑ k : Fin 128, (((a0 (ix2 p k) : EReal) + a2 (ix2 p k)) + a3 (ix2 p k)) * ca (ix2 k j))
      + ∑ k : Fin 128, (a1 (ix2 p k) : EReal) * cb (ix2 k j)) + b1 (ix2 (0 : Fin 1) j)

/-- The stored value at (p, q): the specification's chain after the first layer, over the loaded weights. -/
theorem pay_apply (a0 a2 a3 a1 : Vec Ideal S2048x128 .f32) (ca cb w2 w3 : Vec Ideal S128x128 .f32)
    (b1 b2 b3 : Vec Ideal S1x128 .f32) (wo : Vec Ideal S128x6 .f32) (bo : Vec Ideal S1x6 .f32)
    (p : Fin 2048) (q : Fin 6) :
    k0_pay1 (k0_pay2 a0 a2 a3 a1 ca cb b1 w2 b2) (k0_pay3 (F := Ideal)) w3 b3 wo bo (ix2 p q)
      = Mlp.head Target.zero (firstOf a0 a2 a3 a1 ca cb b1 p)
          (fun k j => (w2 (ix2 k j) : EReal)) (fun j => (b2 (ix2 (0 : Fin 1) j) : EReal))
          (fun k j => (w3 (ix2 k j) : EReal)) (fun j => (b3 (ix2 (0 : Fin 1) j) : EReal))
          (fun k j => (wo (ix2 k j) : EReal)) (fun j => (bo (ix2 (0 : Fin 1) j) : EReal)) q := by
  unfold k0_pay1 k0_pay2 k0_pay3 Mlp.head Mlp.dense Mlp.relu firstOf
  simp only [mm128_apply, mm6_apply, bias128_apply, bias6_apply, shapeCast_self, ValueIdx.addf_apply,
    ValueIdx.maximumf_apply, ValueIdx.truncf_apply, ValueIdx.broadcast_apply]
  rfl

end Cert.Proof.KernelPayload

end
-- ==== Proof.LibRowGather.lean ====
/-
  A row gather read at an index. What `x[idx]` of a table `x : [N, C]` at an integer vector `idx : [R]` lowers to is a
  gather with offset axis 1, collapsed slice axis 0, start index map [0], slice sizes [1, C] and index vector axis 1
  over the indices as `[R, 1]`: row `r` of the result is the table's row whose number is `idx[r, 0]` read as a signed
  integer and clamped into `[0, N - 1]`; column `c` of the result is column `c` of that row. The extents N, C, R are
  arbitrary (N positive).
-/
import Idealize.ShloMosaic.Lib.ValueIdx

namespace RowGather

open Idealize.ShloMosaic Idealize.ShloMosaic.ValueIdx

variable {α : Type}

/-- The dimension numbers of a row gather for a table `[N, C]`, start indices `[R, 1]` and result `[R, C]`. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The gathered array at (r, c) is the table at (clamp (idx (r, 0)), c). -/
theorem gather_row_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N C R wf) x idx (ix2 r c)
      = x (ix2 ⟨min (idx (ix2 r (0 : Fin 1))).toInt.toNat (N - 1), by omega⟩ c) := by
  unfold Host.gather
  congr 1
  funext a
  refine Fin.ext ?_
  match a with
  | ⟨0, _⟩ =>
    show (rowDims N C R wf).start (ix2 r c) idx (0 : Fin 2) + (rowDims N C R wf).batchCoord (ix2 r c) (0 : Fin 2)
        + (rowDims N C R wf).offCoord (ix2 r c) (0 : Fin 2) = min (idx (ix2 r (0 : Fin 1))).toInt.toNat (N - 1)
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 r c) ⟨List.idxOf (0 : Fin 2) (rowDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    have hs : (rowDims N C R wf).start (ix2 r c) idx (1 : Fin 2) = 0 := by
      unfold GatherDims.start
      exact dif_neg (by decide : (1 : Fin 2) ∉ ([0] : List (Fin 2)))
    have ho : (rowDims N C R wf).offCoord (ix2 r c) (1 : Fin 2) = c.val := by
      unfold GatherDims.offCoord
      rw [dif_pos ((GatherDims.mem_sKept _ _).mpr
        ⟨(by decide : (1 : Fin 2) ∉ ([0] : List (Fin 2))), List.not_mem_nil⟩)]
      rfl
    show (rowDims N C R wf).start (ix2 r c) idx (1 : Fin 2) + (rowDims N C R wf).batchCoord (ix2 r c) (1 : Fin 2)
        + (rowDims N C R wf).offCoord (ix2 r c) (1 : Fin 2) = c.val
    rw [GatherDims.batchCoord_eq_zero _ _ _ List.not_mem_nil, hs, ho]
    omega

end RowGather
-- ==== Proof.KernelHostA.lean ====
/-
  What the four gathered arrays hold when the kernel's region is entered. The host pads each index vector from 300000
  to 301056 entries with zeros, normalises negative indices and gathers 301056 rows of the table: row r of a gathered
  array is the table row named by the padded index at r, and the padded index at r below 300000 is the given index.
-/
import proofs.«140650_j55198919688258_1_alg».proof.Proof.Gen.KernelIdeal.Frame
import proofs.«140650_j55198919688258_1_alg».proof.Proof.Target
import proofs.«140650_j55198919688258_1_alg».proof.Proof.LibRowGather
import Idealize.ShloMosaic.Lib.StableHlo.Run
import Idealize.ShloMosaic.Lib.ValueIdx
import Idealize.ShloMosaic.Lib.ValueLayout
import Idealize.ShloMosaic.Lib.IdealHost
import Idealize.ShloMosaic.Lib.KernelVsHost
import Idealize.ShloMosaic.Lib.Pipeline.Value

noncomputable section

namespace Cert.Proof.KernelHostA

open Idealize.ShloMosaic Idealize.ShloMosaic.TcCoe Idealize.ShloMosaic.ValueIdx Idealize.SL.Sem Idealize.ShloMosaic.StableHlo
open Cert.KernelIdeal Cert.KernelIdeal.Gen Cert.Proof

variable [Cert.KernelIdeal.Facts]

/-- Evaluates the contents of a buffer at the region's entry: the host operations before the region, applied in
    order to the initial memory. -/
local macro "eval_prefix" : tactic =>
  `(tactic| (dsimp only [Gen.V, Gen.V0]
             simp only [Gen.hostOps0, Gen.hostOps0_1, Gen.hostOps0_2, Gen.hostOps0_3, Gen.hostOps0_4, Gen.hostOps0_5,
               Gen.hostOps0_6, Gen.hostOps0_7, Gen.hostOps0_8, List.flatten_cons, List.flatten_nil, List.append_nil,
               List.cons_append, List.nil_append]
             after_results_simp))

/-- A row gather at normalised indices, read at (r, k): the table row named by the index at r, at column k. -/
theorem norm_gather_apply (h : S100000x128.Idx → EReal) (P : IVec S301056 32)
    (hb : S301056.BroadcastsInDim S301056x1 ![0]) (hz : S_.BroadcastsInDim S301056 ![]) (r : Fin 301056) (k : Fin 128) :
    Host.gather gather_S100000x128_S301056x1_S301056x128_1_0_n_n_0_1_1128 h
        (broadcastInDim S301056x1 ![0] hb
          (select (cmpi .slt P (broadcastInDim S301056 ![] hz (constantI S_ 32 0#32)))
            (addi P (broadcastInDim S301056 ![] hz (constantI S_ 32 100000#32))) P)) (ix2 r k)
      = Target.grow h (P (ix1 r)) k := by
  refine Eq.trans (RowGather.gather_row_apply (N := 100000) (C := 128) (R := 301056) (by decide) _ h _ r k) ?_
  have e : (broadcastInDim S301056x1 ![0] hb
          (select (cmpi .slt P (broadcastInDim S301056 ![] hz (constantI S_ 32 0#32)))
            (addi P (broadcastInDim S301056 ![] hz (constantI S_ 32 100000#32))) P)) (ix2 r (0 : Fin 1))
      = Target.nidx (P (ix1 r)) := by
    rw [broadcastInDim_apply ![0] hb _ (ix2 r (0 : Fin 1)) (ix1 r) (fun a => match a with
      | ⟨0, _⟩ => by show r.val = if (301056 : Nat) = 1 then 0 else r.val; rw [if_neg (by decide)])]
    show Scalar.select (IntOp.cmpi .slt (P (ix1 r)) (broadcastInDim S301056 ![] hz (constantI S_ 32 0#32) (ix1 r)))
        (IntOp.addi (P (ix1 r)) (broadcastInDim S301056 ![] hz (constantI S_ 32 100000#32) (ix1 r))) (P (ix1 r)) = _
    rw [broadcastInDim_scalar_apply, broadcastInDim_scalar_apply]
    rfl
  unfold Target.grow
  exact congrArg (fun z : Fin 100000 => h (ix2 z k))
    (Fin.ext (congrArg (fun w : BitVec 32 => min w.toInt.toNat (100000 - 1)) e))

variable (m : (ℓ : Loc nD τ sig) → Buf (Elt Ideal) ℓ)

/-- Window 0's array (the rows gathered at the first index vector) at (r, k). -/
theorem V_v10_apply (c : Dev nD) (r : Fin 301056) (k : Fin 128) :
    (V m c main_v10 : S301056x128.Idx → EReal) (ix2 r k)
      = Target.grow (m ((c.tc : Thread nD τ).loc main_arg0)) ((V m c main_v0 : S301056.Idx → BitVec 32) (ix1 r)) k := by
  eval_prefix
  exact norm_gather_apply _ _ _ _ r k

/-- Window 1's array (second index vector) at (r, k). -/
theorem V_v17_apply (c : Dev nD) (r : Fin 301056) (k : Fin 128) :
    (V m c main_v17 : S301056x128.Idx → EReal) (ix2 r k)
      = Target.grow (m ((c.tc : Thread nD τ).loc main_arg0)) ((V m c main_v1 : S301056.Idx → BitVec 32) (ix1 r)) k := by
  eval_prefix
  exact norm_gather_apply _ _ _ _ r k

/-- Window 2's array (third index vector) at (r, k). -/
theorem V_v24_apply (c : Dev nD) (r : Fin 301056) (k : Fin 128) :
    (V m c main_v24 : S301056x128.Idx → EReal) (ix2 r k)
      = Target.grow (m ((c.tc : Thread nD τ).loc main_arg0)) ((V m c main_v2 : S301056.Idx → BitVec 32) (ix1 r)) k := by
  eval_prefix
  exact norm_gather_apply _ _ _ _ r k

/-- Window 3's array (fourth index vector) at (r, k). -/
theorem V_v31_apply (c : Dev nD) (r : Fin 301056) (k : Fin 128) :
    (V m c main_v31 : S301056x128.Idx → EReal) (ix2 r k)
      = Target.grow (m ((c.tc : Thread nD τ).loc main_arg0)) ((V m c main_v3 : S301056.Idx → BitVec 32) (ix1 r)) k := by
  eval_prefix
  exact norm_gather_apply _ _ _ _ r k

/-- A vector of 300000 entries padded at its end to 301056 reads, below 300000, the vector itself. -/
theorem pad_inside_apply {α : Type} (x : S300000.Idx → α) (v : S_.Idx → α) (hp : S300000.Pads ![0] ![1056] ![0] S301056)
    (hu : 0 < S_.numel) (r : Fin 300000) :
    pad S301056 ![0] ![1056] ![0] x v hp hu (ix1 (⟨r.val, by have := r.isLt; omega⟩ : Fin 301056)) = x (ix1 r) :=
  pad_apply_of_inside ![0] ![1056] ![0] x v hp hu _ (ix1 r) (fun a => match a with
    | ⟨0, _⟩ => by show r.val = 0 + r.val * (0 + 1); omega)

/-- The first padded index vector below 300000 is the first index vector. -/
theorem V_v0_inside (c : Dev nD) (r : Fin 300000) :
    (V m c main_v0 : S301056.Idx → BitVec 32) (ix1 (⟨r.val, by have := r.isLt; omega⟩ : Fin 301056))
      = (m ((c.tc : Thread nD τ).loc main_arg1) : S300000.Idx → BitVec 32) (ix1 r) := by
  eval_prefix
  exact pad_inside_apply (α := BitVec 32) (m ((c.tc : Thread nD τ).loc main_arg1)) (constantI S_ 32 0#32)
    Facts₀.pads_S300000_S301056_010560 Facts₀.h_S_ r

theorem V_v1_inside (c : Dev nD) (r : Fin 300000) :
    (V m c main_v1 : S301056.Idx → BitVec 32) (ix1 (⟨r.val, by have := r.isLt; omega⟩ : Fin 301056))
      = (m ((c.tc : Thread nD τ).loc main_arg2) : S300000.Idx → BitVec 32) (ix1 r) := by
  eval_prefix
  exact pad_inside_apply (α := BitVec 32) (m ((c.tc : Thread nD τ).loc main_arg2)) (constantI S_ 32 0#32)
    Facts₀.pads_S300000_S301056_010560 Facts₀.h_S_ r

theorem V_v2_inside (c : Dev nD) (r : Fin 300000) :
    (V m c main_v2 : S301056.Idx → BitVec 32) (ix1 (⟨r.val, by have := r.isLt; omega⟩ : Fin 301056))
      = (m ((c.tc : Thread nD τ).loc main_arg3) : S300000.Idx → BitVec 32) (ix1 r) := by
  eval_prefix
  exact pad_inside_apply (α := BitVec 32) (m ((c.tc : Thread nD τ).loc main_arg3)) (constantI S_ 32 0#32)
    Facts₀.pads_S300000_S301056_010560 Facts₀.h_S_ r

theorem V_v3_inside (c : Dev nD) (r : Fin 300000) :
    (V m c main_v3 : S301056.Idx → BitVec 32) (ix1 (⟨r.val, by have := r.isLt; omega⟩ : Fin 301056))
      = (m ((c.tc : Thread nD τ).loc main_arg4) : S300000.Idx → BitVec 32) (ix1 r) := by
  eval_prefix
  exact pad_inside_apply (α := BitVec 32) (m ((c.tc : Thread nD τ).loc main_arg4)) (constantI S_ 32 0#32)
    Facts₀.pads_S300000_S301056_010560 Facts₀.h_S_ r

end Cert.Proof.KernelHostA

end
-- ==== Proof.KernelHostB.lean ====
/-
  What the weight and bias arrays staged by the kernel hold when its region is entered. The host cuts the 512 x 128
  weight into its four blocks of 128 rows, adds blocks 0, 2 and 3 into one combined weight, multiplies block 1 by the
  constant 3, and reshapes each bias vector into a single row.
-/
import proofs.«140650_j55198919688258_1_alg».proof.Proof.Gen.KernelIdeal.Frame
import proofs.«140650_j55198919688258_1_alg».proof.Proof.Target
import proofs.«140650_j55198919688258_1_alg».proof.Proof.LibRowGather
import Idealize.ShloMosaic.Lib.StableHlo.Run
import Idealize.ShloMosaic.Lib.ValueIdx
import Idealize.ShloMosaic.Lib.ValueLayout
import Idealize.ShloMosaic.Lib.IdealHost
import Idealize.ShloMosaic.Lib.KernelVsHost
import Idealize.ShloMosaic.Lib.Pipeline.Value

noncomputable section

namespace Cert.Proof.KernelHostB

open Idealize.ShloMosaic Idealize.ShloMosaic.TcCoe Idealize.ShloMosaic.ValueIdx Idealize.SL.Sem Idealize.ShloMosaic.StableHlo
open Cert.KernelIdeal Cert.KernelIdeal.Gen Cert.Proof

variable [Cert.KernelIdeal.Facts]

/-- Evaluates the contents of a buffer at the region's entry: the host operations before the region, applied in
    order to the initial memory. -/
local macro "eval_prefix" : tactic =>
  `(tactic| (dsimp only [Gen.V, Gen.V0]
             simp only [Gen.hostOps0, Gen.hostOps0_1, Gen.hostOps0_2, Gen.hostOps0_3, Gen.hostOps0_4, Gen.hostOps0_5,
               Gen.hostOps0_6, Gen.hostOps0_7, Gen.hostOps0_8, List.flatten_cons, List.flatten_nil, List.append_nil,
               List.cons_append, List.nil_append]
             after_results_simp))

/-- Entry (k, j) of the combined weight: (block 0 + block 2) + block 3 of the 512 x 128 weight. -/
def caOf (W : S512x128.Idx → EReal) (k j : Fin 128) : EReal :=
  (W (ix2 (Mlp.blk 0 k) j) + W (ix2 (Mlp.blk 2 k) j)) + W (ix2 (Mlp.blk 3 k) j)

/-- Entry (k, j) of three times block 1 of the 512 x 128 weight. -/
def cbOf (W : S512x128.Idx → EReal) (k j : Fin 128) : EReal :=
  Ideal.ofBits .f32 0x40400000#32 * W (ix2 (Mlp.blk 1 k) j)

/-- The combined weight (block 0 + block 2) + block 3 at (k, j). -/
theorem ca_apply (W : FVec Ideal S512x128 .f32) (h0 : S512x128.Slices ![0, 0] S128x128)
    (h2 : S512x128.Slices ![256, 0] S128x128) (h3 : S512x128.Slices ![384, 0] S128x128) (k j : Fin 128) :
    addf (addf (extractStridedSlice S128x128 ![0, 0] W h0) (extractStridedSlice S128x128 ![256, 0] W h2))
        (extractStridedSlice S128x128 ![384, 0] W h3) (ix2 k j)
      = (W (ix2 (Mlp.blk 0 k) j) + W (ix2 (Mlp.blk 2 k) j)) + W (ix2 (Mlp.blk 3 k) j) := by
  show (extractStridedSlice S128x128 ![0, 0] W h0 (ix2 k j) + extractStridedSlice S128x128 ![256, 0] W h2 (ix2 k j))
      + extractStridedSlice S128x128 ![384, 0] W h3 (ix2 k j) = _
  rw [slice2_axis0_apply 0 W h0 k j (Mlp.blk 0 k) (by rw [Mlp.blk_val]; rfl),
    slice2_axis0_apply 256 W h2 k j (Mlp.blk 2 k) (by rw [Mlp.blk_val]; rfl),
    slice2_axis0_apply 384 W h3 k j (Mlp.blk 3 k) (by rw [Mlp.blk_val]; rfl)]

/-- Three times block 1 at (k, j). -/
theorem cb_apply (W : FVec Ideal S512x128 .f32) (hz : S_.BroadcastsInDim S128x128 ![])
    (h1 : S512x128.Slices ![128, 0] S128x128) (k j : Fin 128) :
    mulf (broadcastInDim S128x128 ![] hz (constant (F := Ideal) S_ .f32 0x40400000#32))
        (extractStridedSlice S128x128 ![128, 0] W h1) (ix2 k j)
      = Ideal.ofBits .f32 0x40400000#32 * W (ix2 (Mlp.blk 1 k) j) := by
  show broadcastInDim S128x128 ![] hz (constant (F := Ideal) S_ .f32 0x40400000#32) (ix2 k j)
      * extractStridedSlice S128x128 ![128, 0] W h1 (ix2 k j) = _
  rw [broadcastInDim_scalar_apply, slice2_axis0_apply 128 W h1 k j (Mlp.blk 1 k) (by rw [Mlp.blk_val]; rfl)]
  rfl

variable (m : (ℓ : Loc nD τ sig) → Buf (Elt Ideal) ℓ)

/-- Window 4's array (the combined weight) at (k, j). -/
theorem V_v37_apply (c : Dev nD) (k j : Fin 128) :
    (V m c main_v37 : S128x128.Idx → EReal) (ix2 k j)
      = caOf (m ((c.tc : Thread nD τ).loc main_arg5)) k j := by
  eval_prefix
  exact ca_apply _ _ _ _ k j

/-- Window 5's array (three times block 1) at (k, j). -/
theorem V_v39_apply (c : Dev nD) (k j : Fin 128) :
    (V m c main_v39 : S128x128.Idx → EReal) (ix2 k j)
      = cbOf (m ((c.tc : Thread nD τ).loc main_arg5)) k j := by
  eval_prefix
  exact cb_apply _ _ _ k j

/-- Window 9's array (the first bias as a row) at (0, j). -/
theorem V_v40_apply (c : Dev nD) (j : Fin 128) :
    (V m c main_v40 : S1x128.Idx → EReal) (ix2 (0 : Fin 1) j)
      = (m ((c.tc : Thread nD τ).loc main_arg6) : S128.Idx → EReal) (ix1 j) := by
  eval_prefix
  exact shapeCast_a_1a_apply _ _ 0 j

/-- Window 10's array (the second bias as a row) at (0, j). -/
theorem V_v41_apply (c : Dev nD) (j : Fin 128) :
    (V m c main_v41 : S1x128.Idx → EReal) (ix2 (0 : Fin 1) j)
      = (m ((c.tc : Thread nD τ).loc main_arg8) : S128.Idx → EReal) (ix1 j) := by
  eval_prefix
  exact shapeCast_a_1a_apply _ _ 0 j

/-- Window 11's array (the third bias as a row) at (0, j). -/
theorem V_v42_apply (c : Dev nD) (j : Fin 128) :
    (V m c main_v42 : S1x128.Idx → EReal) (ix2 (0 : Fin 1) j)
      = (m ((c.tc : Thread nD τ).loc main_arg10) : S128.Idx → EReal) (ix1 j) := by
  eval_prefix
  exact shapeCast_a_1a_apply _ _ 0 j

/-- Window 12's array (the head's bias as a row) at (0, q). -/
theorem V_v43_apply (c : Dev nD) (q : Fin 6) :
    (V m c main_v43 : S1x6.Idx → EReal) (ix2 (0 : Fin 1) q)
      = (m ((c.tc : Thread nD τ).loc main_arg12) : S6.Idx → EReal) (ix1 q) := by
  eval_prefix
  exact shapeCast_a_1a_apply _ _ 0 q

end Cert.Proof.KernelHostB

end
-- ==== Proof.KernelBlockReads.lean ====
/-
  Each window's block at a grid point, read back to the arguments. The grid has 147 points; at point t the four row
  windows and the output window stage rows 2048 t … 2048 t + 2047 of their arrays, and the nine resident windows
  stage their whole arrays. Composed with what the host wrote into those arrays before the region, a block entry is
  an entry of an argument array (or, for the combined weights, a fixed combination of entries of W1).
-/
import proofs.«140650_j55198919688258_1_alg».proof.Proof.Gen.KernelIdeal.Frame
import proofs.«140650_j55198919688258_1_alg».proof.Proof.KernelHostA
import proofs.«140650_j55198919688258_1_alg».proof.Proof.KernelHostB
import Idealize.ShloMosaic.Lib.Pipeline.Value

set_option maxRecDepth 16384

noncomputable section

namespace Cert.Proof.KernelBlockReads

open Idealize.ShloMosaic Idealize.ShloMosaic.TcCoe Idealize.ShloMosaic.ValueIdx Idealize.SL.Sem
open Cert.KernelIdeal Cert.KernelIdeal.Gen Cert.Proof

variable [Cert.KernelIdeal.Facts]

/-! ## The printed index maps, decided over the grid -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem idx11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)
theorem idx12 : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)
theorem idx13 : ∀ t : Fin cfg0.N, win0_13.index t (0 : Fin 2) = t.val ∧ win0_13.index t (1 : Fin 2) = 0 :=
  (by decide +kernel : ∀ t : Fin grid0.N, win0_13.index t (0 : Fin 2) = t.val ∧ win0_13.index t (1 : Fin 2) = 0)

/-- Row p of the block at point t is row 2048 t + p of the array. -/
def row (t : Fin cfg0.N) (p : Fin 2048) : Fin 301056 :=
  ⟨2048 * t.val + p.val, by have ht : t.val < 147 := lt_of_lt_of_eq t.isLt N_0; have := p.isLt; omega⟩

theorem row_val (t : Fin cfg0.N) (p : Fin 2048) : (row t p).val = 2048 * t.val + p.val := rfl

variable (m : (ℓ : Loc nD τ sig) → Buf (Elt Ideal) ℓ)

/-! ## The blocks -/

/-- Window 0's block at point t, entry (p, k): the table row named by padded index vector 0 at row 2048 t + p. -/
theorem blk0 (c : Dev nD) (t : Fin cfg0.N) (p : Fin 2048) (k : Fin 128) :
    (iblk m c 0 t : S2048x128.Idx → EReal) (ix2 p k)
      = Target.grow (m ((c.tc : Thread nD τ).loc main_arg0)) ((V m c main_v0 : S301056.Idx → BitVec 32) (ix1 (row t p))) k := by
  obtain ⟨e0, e1⟩ := idx0 t
  have hemb : ((cfg0.win 0).blk t).view.emb (ix2 p k) = ix2 (row t p) k := by
    funext a; apply Fin.ext
    match a with
    | ⟨0, _⟩ => show win0_0.index t (0 : Fin 2) * 2048 + 1 * p.val = 2048 * t.val + p.val; omega
    | ⟨1, _⟩ => show win0_0.index t (1 : Fin 2) * 128 + 1 * k.val = k.val; omega
  show (V m c main_v10 : S301056x128.Idx → EReal) (((cfg0.win 0).blk t).view.emb (ix2 p k)) = _
  rw [hemb]
  exact KernelHostA.V_v10_apply m c (row t p) k

/-- Window 1's block at point t, entry (p, k): the table row named by padded index vector 1 at row 2048 t + p. -/
theorem blk1 (c : Dev nD) (t : Fin cfg0.N) (p : Fin 2048) (k : Fin 128) :
    (iblk m c 1 t : S2048x128.Idx → EReal) (ix2 p k)
      = Target.grow (m ((c.tc : Thread nD τ).loc main_arg0)) ((V m c main_v1 : S301056.Idx → BitVec 32) (ix1 (row t p))) k := by
  obtain ⟨e0, e1⟩ := idx1 t
  have hemb : ((cfg0.win 1).blk t).view.emb (ix2 p k) = ix2 (row t p) k := by
    funext a; apply Fin.ext
    match a with
    | ⟨0, _⟩ => show win0_1.index t (0 : Fin 2) * 2048 + 1 * p.val = 2048 * t.val + p.val; omega
    | ⟨1, _⟩ => show win0_1.index t (1 : Fin 2) * 128 + 1 * k.val = k.val; omega
  show (V m c main_v17 : S301056x128.Idx → EReal) (((cfg0.win 1).blk t).view.emb (ix2 p k)) = _
  rw [hemb]
  exact KernelHostA.V_v17_apply m c (row t p) k

/-- Window 2's block at point t, entry (p, k): the table row named by padded index vector 2 at row 2048 t + p. -/
theorem blk2 (c : Dev nD) (t : Fin cfg0.N) (p : Fin 2048) (k : Fin 128) :
    (iblk m c 2 t : S2048x128.Idx → EReal) (ix2 p k)
      = Target.grow (m ((c.tc : Thread nD τ).loc main_arg0)) ((V m c main_v2 : S301056.Idx → BitVec 32) (ix1 (row t p))) k := by
  obtain ⟨e0, e1⟩ := idx2 t
  have hemb : ((cfg0.win 2).blk t).view.emb (ix2 p k) = ix2 (row t p) k := by
    funext a; apply Fin.ext
    match a with
    | ⟨0, _⟩ => show win0_2.index t (0 : Fin 2) * 2048 + 1 * p.val = 2048 * t.val + p.val; omega
    | ⟨1, _⟩ => show win0_2.index t (1 : Fin 2) * 128 + 1 * k.val = k.val; omega
  show (V m c main_v24 : S301056x128.Idx → EReal) (((cfg0.win 2).blk t).view.emb (ix2 p k)) = _
  rw [hemb]
  exact KernelHostA.V_v24_apply m c (row t p) k

/-- Window 3's block at point t, entry (p, k): the table row named by padded index vector 3 at row 2048 t + p. -/
theorem blk3 (c : Dev nD) (t : Fin cfg0.N) (p : Fin 2048) (k : Fin 128) :
    (iblk m c 3 t : S2048x128.Idx → EReal) (ix2 p k)
      = Target.grow (m ((c.tc : Thread nD τ).loc main_arg0)) ((V m c main_v3 : S301056.Idx → BitVec 32) (ix1 (row t p))) k := by
  obtain ⟨e0, e1⟩ := idx3 t
  have hemb : ((cfg0.win 3).blk t).view.emb (ix2 p k) = ix2 (row t p) k := by
    funext a; apply Fin.ext
    match a with
    | ⟨0, _⟩ => show win0_3.index t (0 : Fin 2) * 2048 + 1 * p.val = 2048 * t.val + p.val; omega
    | ⟨1, _⟩ => show win0_3.index t (1 : Fin 2) * 128 + 1 * k.val = k.val; omega
  show (V m c main_v31 : S301056x128.Idx → EReal) (((cfg0.win 3).blk t).view.emb (ix2 p k)) = _
  rw [hemb]
  exact KernelHostA.V_v31_apply m c (row t p) k

/-- Window 4's block (the combined weight) at (k, j). -/
theorem blk4 (c : Dev nD) (t : Fin cfg0.N) (k : Fin 128) (j : Fin 128) :
    (iblk m c 4 t : S128x128.Idx → EReal) (ix2 k j)
      = KernelHostB.caOf (m ((c.tc : Thread nD τ).loc main_arg5)) k j := by
  obtain ⟨e0, e1⟩ := idx4 t
  have hemb : ((cfg0.win 4).blk t).view.emb (ix2 k j) = ix2 k j := by
    funext x; apply Fin.ext
    match x with
    | ⟨0, _⟩ => show win0_4.index t (0 : Fin 2) * 128 + 1 * k.val = k.val; omega
    | ⟨1, _⟩ => show win0_4.index t (1 : Fin 2) * 128 + 1 * j.val = j.val; omega
  show (V m c main_v37 : S128x128.Idx → EReal) (((cfg0.win 4).blk t).view.emb (ix2 k j)) = _
  rw [hemb]
  exact KernelHostB.V_v37_apply m c k j

/-- Window 5's block (three times block 1 of W1) at (k, j). -/
theorem blk5 (c : Dev nD) (t : Fin cfg0.N) (k : Fin 128) (j : Fin 128) :
    (iblk m c 5 t : S128x128.Idx → EReal) (ix2 k j)
      = KernelHostB.cbOf (m ((c.tc : Thread nD τ).loc main_arg5)) k j := by
  obtain ⟨e0, e1⟩ := idx5 t
  have hemb : ((cfg0.win 5).blk t).view.emb (ix2 k j) = ix2 k j := by
    funext x; apply Fin.ext
    match x with
    | ⟨0, _⟩ => show win0_5.index t (0 : Fin 2) * 128 + 1 * k.val = k.val; omega
    | ⟨1, _⟩ => show win0_5.index t (1 : Fin 2) * 128 + 1 * j.val = j.val; omega
  show (V m c main_v39 : S128x128.Idx → EReal) (((cfg0.win 5).blk t).view.emb (ix2 k j)) = _
  rw [hemb]
  exact KernelHostB.V_v39_apply m c k j

/-- Window 6's block (the second layer's weight) at (k, j). -/
theorem blk6 (c : Dev nD) (t : Fin cfg0.N) (k : Fin 128) (j : Fin 128) :
    (iblk m c 6 t : S128x128.Idx → EReal) (ix2 k j)
      = (m ((c.tc : Thread nD τ).loc main_arg7) (ix2 k j) : EReal) := by
  obtain ⟨e0, e1⟩ := idx6 t
  have hemb : ((cfg0.win 6).blk t).view.emb (ix2 k j) = ix2 k j := by
    funext x; apply Fin.ext
    match x with
    | ⟨0, _⟩ => show win0_6.index t (0 : Fin 2) * 128 + 1 * k.val = k.val; omega
    | ⟨1, _⟩ => show win0_6.index t (1 : Fin 2) * 128 + 1 * j.val = j.val; omega
  show (V m c main_arg7 : S128x128.Idx → EReal) (((cfg0.win 6).blk t).view.emb (ix2 k j)) = _
  rw [hemb]
  exact congrFun (V_main_arg7 m c) (ix2 k j)

/-- Window 7's block (the third layer's weight) at (k, j). -/
theorem blk7 (c : Dev nD) (t : Fin cfg0.N) (k : Fin 128) (j : Fin 128) :
    (iblk m c 7 t : S128x128.Idx → EReal) (ix2 k j)
      = (m ((c.tc : Thread nD τ).loc main_arg9) (ix2 k j) : EReal) := by
  obtain ⟨e0, e1⟩ := idx7 t
  have hemb : ((cfg0.win 7).blk t).view.emb (ix2 k j) = ix2 k j := by
    funext x; apply Fin.ext
    match x with
    | ⟨0, _⟩ => show win0_7.index t (0 : Fin 2) * 128 + 1 * k.val = k.val; omega
    | ⟨1, _⟩ => show win0_7.index t (1 : Fin 2) * 128 + 1 * j.val = j.val; omega
  show (V m c main_arg9 : S128x128.Idx → EReal) (((cfg0.win 7).blk t).view.emb (ix2 k j)) = _
  rw [hemb]
  exact congrFun (V_main_arg9 m c) (ix2 k j)

/-- Window 8's block (the head's weight) at (k, q). -/
theorem blk8 (c : Dev nD) (t : Fin cfg0.N) (k : Fin 128) (q : Fin 6) :
    (iblk m c 8 t : S128x6.Idx → EReal) (ix2 k q)
      = (m ((c.tc : Thread nD τ).loc main_arg11) (ix2 k q) : EReal) := by
  obtain ⟨e0, e1⟩ := idx8 t
  have hemb : ((cfg0.win 8).blk t).view.emb (ix2 k q) = ix2 k q := by
    funext x; apply Fin.ext
    match x with
    | ⟨0, _⟩ => show win0_8.index t (0 : Fin 2) * 128 + 1 * k.val = k.val; omega
    | ⟨1, _⟩ => show win0_8.index t (1 : Fin 2) * 6 + 1 * q.val = q.val; omega
  show (V m c main_arg11 : S128x6.Idx → EReal) (((cfg0.win 8).blk t).view.emb (ix2 k q)) = _
  rw [hemb]
  exact congrFun (V_main_arg11 m c) (ix2 k q)

/-- Window 9's block (the first bias as a row) at (0, j). -/
theorem blk9 (c : Dev nD) (t : Fin cfg0.N) (u : Fin 1) (j : Fin 128) :
    (iblk m c 9 t : S1x128.Idx → EReal) (ix2 u j)
      = (m ((c.tc : Thread nD τ).loc main_arg6) (ix1 j) : EReal) := by
  obtain ⟨e0, e1⟩ := idx9 t
  have hemb : ((cfg0.win 9).blk t).view.emb (ix2 u j) = ix2 u j := by
    funext x; apply Fin.ext
    match x with
    | ⟨0, _⟩ => show win0_9.index t (0 : Fin 2) * 1 + 1 * u.val = u.val; omega
    | ⟨1, _⟩ => show win0_9.index t (1 : Fin 2) * 128 + 1 * j.val = j.val; omega
  show (V m c main_v40 : S1x128.Idx → EReal) (((cfg0.win 9).blk t).view.emb (ix2 u j)) = _
  rw [hemb]
  obtain rfl : u = 0 := Subsingleton.elim _ _
  exact KernelHostB.V_v40_apply m c j

/-- Window 10's block (the second bias as a row) at (0, j). -/
theorem blk10 (c : Dev nD) (t : Fin cfg0.N) (u : Fin 1) (j : Fin 128) :
    (iblk m c 10 t : S1x128.Idx → EReal) (ix2 u j)
      = (m ((c.tc : Thread nD τ).loc main_arg8) (ix1 j) : EReal) := by
  obtain ⟨e0, e1⟩ := idx10 t
  have hemb : ((cfg0.win 10).blk t).view.emb (ix2 u j) = ix2 u j := by
    funext x; apply Fin.ext
    match x with
    | ⟨0, _⟩ => show win0_10.index t (0 : Fin 2) * 1 + 1 * u.val = u.val; omega
    | ⟨1, _⟩ => show win0_10.index t (1 : Fin 2) * 128 + 1 * j.val = j.val; omega
  show (V m c main_v41 : S1x128.Idx → EReal) (((cfg0.win 10).blk t).view.emb (ix2 u j)) = _
  rw [hemb]
  obtain rfl : u = 0 := Subsingleton.elim _ _
  exact KernelHostB.V_v41_apply m c j

/-- Window 11's block (the third bias as a row) at (0, j). -/
theorem blk11 (c : Dev nD) (t : Fin cfg0.N) (u : Fin 1) (j : Fin 128) :
    (iblk m c 11 t : S1x128.Idx → EReal) (ix2 u j)
      = (m ((c.tc : Thread nD τ).loc main_arg10) (ix1 j) : EReal) := by
  obtain ⟨e0, e1⟩ := idx11 t
  have hemb : ((cfg0.win 11).blk t).view.emb (ix2 u j) = ix2 u j := by
    funext x; apply Fin.ext
    match x with
    | ⟨0, _⟩ => show win0_11.index t (0 : Fin 2) * 1 + 1 * u.val = u.val; omega
    | ⟨1, _⟩ => show win0_11.index t (1 : Fin 2) * 128 + 1 * j.val = j.val; omega
  show (V m c main_v42 : S1x128.Idx → EReal) (((cfg0.win 11).blk t).view.emb (ix2 u j)) = _
  rw [hemb]
  obtain rfl : u = 0 := Subsingleton.elim _ _
  exact KernelHostB.V_v42_apply m c j

/-- Window 12's block (the head's bias as a row) at (0, q). -/
theorem blk12 (c : Dev nD) (t : Fin cfg0.N) (u : Fin 1) (q : Fin 6) :
    (iblk m c 12 t : S1x6.Idx → EReal) (ix2 u q)
      = (m ((c.tc : Thread nD τ).loc main_arg12) (ix1 q) : EReal) := by
  obtain ⟨e0, e1⟩ := idx12 t
  have hemb : ((cfg0.win 12).blk t).view.emb (ix2 u q) = ix2 u q := by
    funext x; apply Fin.ext
    match x with
    | ⟨0, _⟩ => show win0_12.index t (0 : Fin 2) * 1 + 1 * u.val = u.val; omega
    | ⟨1, _⟩ => show win0_12.index t (1 : Fin 2) * 6 + 1 * q.val = q.val; omega
  show (V m c main_v43 : S1x6.Idx → EReal) (((cfg0.win 12).blk t).view.emb (ix2 u q)) = _
  rw [hemb]
  obtain rfl : u = 0 := Subsingleton.elim _ _
  exact KernelHostB.V_v43_apply m c q

end Cert.Proof.KernelBlockReads

end
-- ==== Proof.KernelTarget.lean ====
/-
  What the kernel's region leaves in its output array, 301056 x 6, as one function of the arrays it stages: the four
  gathered rows of row r come from the PADDED index vectors, and the first layer is spelled as the body computes it —
  the sum (g0 + g2) + g3 against the combined weight (block 0 + block 2) + block 3 of W1, plus g1 against three times
  block 1, plus the bias — followed by the specification's chain of layers.
-/
import proofs.«140650_j55198919688258_1_alg».proof.Proof.Target

noncomputable section

namespace Cert.Proof.KernelTarget

open Finset Idealize.ShloMosaic Idealize.ShloMosaic.ValueIdx Cert.Proof

/-- The constant 3.0 of the host's product, as the extended real its f32 pattern denotes. -/
abbrev three : EReal := Ideal.ofBits .f32 0x40400000#32

/-- The first layer of row r as the kernel computes it. -/
def firstK (h : (⟨2, ![100000, 128]⟩ : Shape).Idx → EReal)
    (P0 P1 P2 P3 : (⟨1, ![301056]⟩ : Shape).Idx → BitVec 32)
    (W1 : (⟨2, ![512, 128]⟩ : Shape).Idx → EReal) (b1 : (⟨1, ![128]⟩ : Shape).Idx → EReal) (r : Fin 301056) :
    Fin 128 → EReal :=
  fun j => ((∑ k : Fin 128, ((Target.grow h (P0 (ix1 r)) k + Target.grow h (P2 (ix1 r)) k) + Target.grow h (P3 (ix1 r)) k)
        * ((W1 (ix2 (Mlp.blk 0 k) j) + W1 (ix2 (Mlp.blk 2 k) j)) + W1 (ix2 (Mlp.blk 3 k) j)))
      + ∑ k : Fin 128, Target.grow h (P1 (ix1 r)) k * (three * W1 (ix2 (Mlp.blk 1 k) j))) + b1 (ix1 j)

/-- The kernel's output array, 301056 x 6. -/
def GK (h : (⟨2, ![100000, 128]⟩ : Shape).Idx → EReal)
    (P0 P1 P2 P3 : (⟨1, ![301056]⟩ : Shape).Idx → BitVec 32)
    (W1 : (⟨2, ![512, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 128]⟩ : Shape).Idx → EReal) (b3 : (⟨1, ![128]⟩ : Shape).Idx → EReal)
    (Wo : (⟨2, ![128, 6]⟩ : Shape).Idx → EReal) (bo : (⟨1, ![6]⟩ : Shape).Idx → EReal) :
    (⟨2, ![301056, 6]⟩ : Shape).Idx → EReal :=
  fun y => Mlp.head Target.zero (firstK h P0 P1 P2 P3 W1 b1 (y 0))
    (fun k j => W2 (ix2 k j)) (fun j => b2 (ix1 j)) (fun k j => W3 (ix2 k j)) (fun j => b3 (ix1 j))
    (fun k j => Wo (ix2 k j)) (fun j => bo (ix1 j)) (y 1)

end Cert.Proof.KernelTarget

end
-- ==== Proof.KernelFinal.lean ====
/-
  The kernel's output array after the region. Grid point t writes back the 2048 x 6 block of rows 2048 t … 2048 t + 2047;
  entry (p, q) of what it writes is the body's stored value on the point's input blocks, which — the blocks read back
  to the arguments — is entry (2048 t + p, q) of one whole-array function. The 147 blocks tile the 301056 rows (the
  block holding row r is block r / 2048), so after the region the array IS that function.
-/
import proofs.«140650_j55198919688258_1_alg».proof.Proof.Gen.KernelIdeal.Frame
import proofs.«140650_j55198919688258_1_alg».proof.Proof.KernelPayload
import proofs.«140650_j55198919688258_1_alg».proof.Proof.KernelBlockReads
import proofs.«140650_j55198919688258_1_alg».proof.Proof.KernelTarget
import Idealize.ShloMosaic.Lib.Pipeline.Value

set_option maxRecDepth 16384

noncomputable section

namespace Cert.Proof.KernelFinal

open Finset Idealize.ShloMosaic Idealize.ShloMosaic.TcCoe Idealize.ShloMosaic.ValueIdx Idealize.SL.Sem
open Idealize.ShloMosaic.Pipeline (Dat)
open Cert.KernelIdeal Cert.KernelIdeal.Gen Cert.Proof Cert.Proof.KernelBlockReads

variable [Cert.KernelIdeal.Facts]

theorem hz : (![0, 0] : Fin 2 → Nat) = fun _ => 0 := funext fun a => by fin_cases a <;> rfl

/-- The body's first layer at row p depends on its blocks only through row p of the row blocks, the two combined
    weights and the bias row: entries replaced by equal ones give the same first layer. -/
theorem firstOf_congr (a0 a2 a3 a1 : Vec Ideal S2048x128 .f32) (ca cb : Vec Ideal S128x128 .f32) (b1 : Vec Ideal S1x128 .f32)
    (p : Fin 2048) (G0 G1 G2 G3 : Fin 128 → EReal) (CA CB : Fin 128 → Fin 128 → EReal) (B : Fin 128 → EReal)
    (h0 : ∀ k, (a0 (ix2 p k) : EReal) = G0 k) (h2 : ∀ k, (a2 (ix2 p k) : EReal) = G2 k)
    (h3 : ∀ k, (a3 (ix2 p k) : EReal) = G3 k) (h1 : ∀ k, (a1 (ix2 p k) : EReal) = G1 k)
    (hca : ∀ k j, (ca (ix2 k j) : EReal) = CA k j) (hcb : ∀ k j, (cb (ix2 k j) : EReal) = CB k j)
    (hb : ∀ j, (b1 (ix2 (0 : Fin 1) j) : EReal) = B j) :
    KernelPayload.firstOf a0 a2 a3 a1 ca cb b1 p
      = fun j => ((∑ k : Fin 128, ((G0 k + G2 k) + G3 k) * CA k j) + ∑ k : Fin 128, G1 k * CB k j) + B j := by
  funext j
  unfold KernelPayload.firstOf
  simp only [h0, h2, h3, h1, hca, hcb, hb]

variable (m : (ℓ : Loc nD τ sig) → Buf (Elt Ideal) ℓ)

/-- The kernel's output array as a function of the arguments and of the padded index vectors the host wrote. -/
def GKm (c : Dev nD) : S301056x6.Idx → EReal :=
  KernelTarget.GK (m ((c.tc : Thread nD τ).loc main_arg0)) (V m c main_v0) (V m c main_v1) (V m c main_v2) (V m c main_v3)
    (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
    (m ((c.tc : Thread nD τ).loc main_arg10)) (m ((c.tc : Thread nD τ).loc main_arg11)) (m ((c.tc : Thread nD τ).loc main_arg12))

/-- The first layer the body computes at row p of point t is the kernel's first layer of row 2048 t + p. -/
theorem first_eq (c : Dev nD) (t : Fin cfg0.N) (p : Fin 2048) :
    KernelPayload.firstOf (iblk m c 0 t) (iblk m c 2 t) (iblk m c 3 t) (iblk m c 1 t) (iblk m c 4 t) (iblk m c 5 t)
        (iblk m c 9 t) p
      = KernelTarget.firstK (m ((c.tc : Thread nD τ).loc main_arg0)) (V m c main_v0) (V m c main_v1) (V m c main_v2) (V m c main_v3)
          (m ((c.tc : Thread nD τ).loc main_arg5)) (m ((c.tc : Thread nD τ).loc main_arg6)) (row t p) := by
  refine (firstOf_congr (iblk m c 0 t) (iblk m c 2 t) (iblk m c 3 t) (iblk m c 1 t) (iblk m c 4 t) (iblk m c 5 t)
    (iblk m c 9 t) p _ _ _ _ _ _ _ (blk0 m c t p) (blk2 m c t p) (blk3 m c t p) (blk1 m c t p) (blk4 m c t) (blk5 m c t)
    (fun j => blk9 m c t 0 j)).trans ?_
  rfl

/-- WHAT POINT t WRITES BACK is block t of the whole-array function. -/
theorem flushed_eq (c : Dev nD) (t : Fin cfg0.N) :
    (dats m 0 c).flushed 13 t = ((cfg0.win 13).blk t).view.read (Elt Ideal) (GKm m c) := by
  show (cfg0.win 13).cut (grid0.coords t) ((dats m 0 c).after 13 t) = _
  rw [after0_13]
  unfold out0_13
  rw [View.canon_unit_zero hz]
  simp only [View.ld_unit_zero (S := S2048x128) hz, View.ld_unit_zero (S := S128x128) hz,
    View.ld_unit_zero (S := S1x128) hz, View.ld_unit_zero (S := S128x6) hz, View.ld_unit_zero (S := S1x6) hz]
  refine funext fun (y : S2048x6.Idx) => ?_
  obtain ⟨p, q, rfl⟩ : ∃ (p : Fin 2048) (q : Fin 6), y = ix2 p q := ⟨y 0, y 1, eq_ix2 y⟩
  refine (KernelPayload.pay_apply (iblk m c 0 t) (iblk m c 2 t) (iblk m c 3 t) (iblk m c 1 t) (iblk m c 4 t)
    (iblk m c 5 t) (iblk m c 6 t) (iblk m c 7 t) (iblk m c 9 t) (iblk m c 10 t) (iblk m c 11 t) (iblk m c 8 t)
    (iblk m c 12 t) p q).trans ?_
  obtain ⟨e0, e1⟩ := idx13 t
  have hemb : ((cfg0.win 13).blk t).view.emb (ix2 p q) = ix2 (row t p) q := by
    funext a; apply Fin.ext
    match a with
    | ⟨0, _⟩ => show win0_13.index t (0 : Fin 2) * 2048 + 1 * p.val = 2048 * t.val + p.val; omega
    | ⟨1, _⟩ => show win0_13.index t (1 : Fin 2) * 6 + 1 * q.val = q.val; omega
  show _ = GKm m c (((cfg0.win 13).blk t).view.emb (ix2 p q))
  rw [hemb, first_eq m c t p]
  have h6 : (fun (k j : Fin 128) => (iblk m c 6 t (ix2 k j) : EReal)) = fun k j => ((m ((c.tc : Thread nD τ).loc main_arg7)) (ix2 k j) : EReal) :=
    funext fun k => funext fun j => blk6 m c t k j
  have h10 : (fun (j : Fin 128) => (iblk m c 10 t (ix2 (0 : Fin 1) j) : EReal)) = fun j => ((m ((c.tc : Thread nD τ).loc main_arg8)) (ix1 j) : EReal) :=
    funext fun j => blk10 m c t 0 j
  have h7 : (fun (k j : Fin 128) => (iblk m c 7 t (ix2 k j) : EReal)) = fun k j => ((m ((c.tc : Thread nD τ).loc main_arg9)) (ix2 k j) : EReal) :=
    funext fun k => funext fun j => blk7 m c t k j
  have h11 : (fun (j : Fin 128) => (iblk m c 11 t (ix2 (0 : Fin 1) j) : EReal)) = fun j => ((m ((c.tc : Thread nD τ).loc main_arg10)) (ix1 j) : EReal) :=
    funext fun j => blk11 m c t 0 j
  have h8 : (fun (k : Fin 128) (q : Fin 6) => (iblk m c 8 t (ix2 k q) : EReal)) = fun k q => ((m ((c.tc : Thread nD τ).loc main_arg11)) (ix2 k q) : EReal) :=
    funext fun k => funext fun q => blk8 m c t k q
  have h12 : (fun (q : Fin 6) => (iblk m c 12 t (ix2 (0 : Fin 1) q) : EReal)) = fun q => ((m ((c.tc : Thread nD τ).loc main_arg12)) (ix1 q) : EReal) :=
    funext fun q => blk12 m c t 0 q
  rw [h6, h10, h7, h11, h8, h12]
  rfl

/-- An index of the array is in point t's block iff each coordinate is in the block's range on its axis. -/
theorem mem_blk (t : Fin cfg0.N) (i : S301056x6.Idx) :
    i ∈ ((cfg0.win 13).blk t).view.set ↔ ∀ a : Fin 2, win0_13.index t a * S2048x6.size a ≤ (i a).val
      ∧ (i a).val < win0_13.index t a * S2048x6.size a + S2048x6.size a := by
  show i ∈ ((View.whole main_v44).slice (win0_13.rect t)).set ↔ _
  rw [View.set_slice_whole, Rect.mem_set_unit]
  exact Iff.rfl

/-- Every index of the array is in some point's block: row r is in block r / 2048. -/
theorem cover (i : S301056x6.Idx) :
    ∃ t : Fin cfg0.N, (cfg0.win 13).flush t = true ∧ i ∈ ((cfg0.win 13).blk t).view.set := by
  have hi0 : (i 0).val < 301056 := (i 0).isLt
  have hi1 : (i 1).val < 6 := (i 1).isLt
  have hlt : (i 0).val / 2048 < cfg0.N := lt_of_lt_of_eq (by omega : (i 0).val / 2048 < 147) N_0.symm
  obtain ⟨e0, e1⟩ := idx13 ⟨(i 0).val / 2048, hlt⟩
  have e0' : win0_13.index ⟨(i 0).val / 2048, hlt⟩ (0 : Fin 2) = (i 0).val / 2048 := e0
  refine ⟨⟨(i 0).val / 2048, hlt⟩, flush0_13 _, ?_⟩
  rw [mem_blk]
  intro a
  match a with
  | ⟨0, _⟩ =>
    show win0_13.index ⟨(i 0).val / 2048, hlt⟩ (0 : Fin 2) * 2048 ≤ (i 0).val
      ∧ (i 0).val < win0_13.index ⟨(i 0).val / 2048, hlt⟩ (0 : Fin 2) * 2048 + 2048
    omega
  | ⟨1, _⟩ =>
    show win0_13.index ⟨(i 0).val / 2048, hlt⟩ (1 : Fin 2) * 6 ≤ (i 1).val
      ∧ (i 1).val < win0_13.index ⟨(i 0).val / 2048, hlt⟩ (1 : Fin 2) * 6 + 6
    omega

/-- THE ARRAY after the region is the whole-array function. -/
theorem final13 (c : Dev nD) : (dats m 0 c).arrAt 13 cfg0.N = GKm m c :=
  (dats m 0 c).arrAt_eq_of_cover 13 (GKm m c) (fun t _ => flushed_eq m c t) cover

end Cert.Proof.KernelFinal

end
-- ==== Proof.KernelIsTarget.lean ====
/-
  The kernel's output array, on its first 300000 rows, is the target function.

  Both are the same chain of layers applied to a first layer of row r. The kernel's first layer is written with one
  combined weight for the blocks 0, 2, 3 of W1 and three times block 1 against the row g1 alone; the target's is
  written block by block. At real entries of the table and of W1 the two agree (distributivity of the product over
  the sum, which on the extended reals needs real entries), and the padded index vectors agree with the given ones
  on the rows below 300000.
-/
import proofs.«140650_j55198919688258_1_alg».proof.Proof.KernelTarget
import Idealize.ShloMosaic.PureOps.Ideal
import Idealize.ShloMosaic.Lib.ValueIdx

noncomputable section

namespace Cert.Proof.KernelIsTarget

open Finset Idealize.ShloMosaic Idealize.ShloMosaic.ValueIdx Cert.Proof

/-- 3.0's f32 pattern denotes the real 3. -/
theorem three_eq : KernelTarget.three = ((3 : ℝ) : EReal) := by
  simp [Ideal.ofBits, Ideal.ieee, -EReal.coe_mul]; norm_num

/-- Every entry of a table row named by an index is an entry of the table, hence real when the table is. -/
theorem grow_real (h : (⟨2, ![100000, 128]⟩ : Shape).Idx → EReal) (hh : ∀ i, ∃ x : ℝ, h i = (x : EReal))
    (i : BitVec 32) (k : Fin 128) : ∃ x : ℝ, Target.grow h i k = (x : EReal) := hh _

/-- The kernel's first layer of row r (below 300000) is the target's, at real entries of the table and of W1,
    when the padded index vectors agree with the given ones at r. -/
theorem firstK_eq_first (h : (⟨2, ![100000, 128]⟩ : Shape).Idx → EReal)
    (P0 P1 P2 P3 : (⟨1, ![301056]⟩ : Shape).Idx → BitVec 32)
    (i0 i1 i2 i3 : (⟨1, ![300000]⟩ : Shape).Idx → BitVec 32)
    (W1 : (⟨2, ![512, 128]⟩ : Shape).Idx → EReal) (b1 : (⟨1, ![128]⟩ : Shape).Idx → EReal)
    (hh : ∀ i, ∃ x : ℝ, h i = (x : EReal)) (hW : ∀ i, ∃ x : ℝ, W1 i = (x : EReal))
    (r : Fin 300000)
    (hP0 : P0 (ix1 (⟨r.val, by have := r.isLt; omega⟩ : Fin 301056)) = i0 (ix1 r))
    (hP1 : P1 (ix1 (⟨r.val, by have := r.isLt; omega⟩ : Fin 301056)) = i1 (ix1 r))
    (hP2 : P2 (ix1 (⟨r.val, by have := r.isLt; omega⟩ : Fin 301056)) = i2 (ix1 r))
    (hP3 : P3 (ix1 (⟨r.val, by have := r.isLt; omega⟩ : Fin 301056)) = i3 (ix1 r)) :
    KernelTarget.firstK h P0 P1 P2 P3 W1 b1 (⟨r.val, by have := r.isLt; omega⟩ : Fin 301056)
      = Target.first h i0 i1 i2 i3 W1 b1 r := by
  funext j
  unfold KernelTarget.firstK Target.first
  rw [hP0, hP1, hP2, hP3]
  exact Mlp.combined_eq_pre1 (Target.grow h (i0 (ix1 r))) (Target.grow h (i1 (ix1 r))) (Target.grow h (i2 (ix1 r)))
    (Target.grow h (i3 (ix1 r))) (fun e j => W1 (ix2 e j)) (fun j => b1 (ix1 j)) KernelTarget.three three_eq
    (grow_real h hh _) (grow_real h hh _) (grow_real h hh _) (grow_real h hh _) (fun e j => hW _) j

/-- On the first 300000 rows the kernel's output array is the target, when the table h and the weight W1 hold real
    numbers and the padded index vectors agree with the given ones below 300000. -/
theorem GK_eq_G (h : (⟨2, ![100000, 128]⟩ : Shape).Idx → EReal)
    (P0 P1 P2 P3 : (⟨1, ![301056]⟩ : Shape).Idx → BitVec 32)
    (i0 i1 i2 i3 : (⟨1, ![300000]⟩ : Shape).Idx → BitVec 32)
    (W1 : (⟨2, ![512, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 128]⟩ : Shape).Idx → EReal) (b3 : (⟨1, ![128]⟩ : Shape).Idx → EReal)
    (Wo : (⟨2, ![128, 6]⟩ : Shape).Idx → EReal) (bo : (⟨1, ![6]⟩ : Shape).Idx → EReal)
    (hh : ∀ i, ∃ x : ℝ, h i = (x : EReal)) (hW : ∀ i, ∃ x : ℝ, W1 i = (x : EReal))
    (hP0 : ∀ r : Fin 300000, P0 (ix1 (⟨r.val, by have := r.isLt; omega⟩ : Fin 301056)) = i0 (ix1 r))
    (hP1 : ∀ r : Fin 300000, P1 (ix1 (⟨r.val, by have := r.isLt; omega⟩ : Fin 301056)) = i1 (ix1 r))
    (hP2 : ∀ r : Fin 300000, P2 (ix1 (⟨r.val, by have := r.isLt; omega⟩ : Fin 301056)) = i2 (ix1 r))
    (hP3 : ∀ r : Fin 300000, P3 (ix1 (⟨r.val, by have := r.isLt; omega⟩ : Fin 301056)) = i3 (ix1 r))
    (r : Fin 300000) (q : Fin 6) :
    KernelTarget.GK h P0 P1 P2 P3 W1 b1 W2 b2 W3 b3 Wo bo (ix2 (⟨r.val, by have := r.isLt; omega⟩ : Fin 301056) q)
      = Target.G h i0 i1 i2 i3 W1 b1 W2 b2 W3 b3 Wo bo (ix2 r q) := by
  show Mlp.head Target.zero
      (KernelTarget.firstK h P0 P1 P2 P3 W1 b1 (⟨r.val, by have := r.isLt; omega⟩ : Fin 301056))
      (fun k j => W2 (ix2 k j)) (fun j => b2 (ix1 j)) (fun k j => W3 (ix2 k j)) (fun j => b3 (ix1 j))
      (fun k j => Wo (ix2 k j)) (fun j => bo (ix1 j)) q
    = Mlp.head Target.zero (Target.first h i0 i1 i2 i3 W1 b1 r)
      (fun k j => W2 (ix2 k j)) (fun j => b2 (ix1 j)) (fun k j => W3 (ix2 k j)) (fun j => b3 (ix1 j))
      (fun k j => Wo (ix2 k j)) (fun j => bo (ix1 j)) q
  rw [firstK_eq_first h P0 P1 P2 P3 i0 i1 i2 i3 W1 b1 hh hW r (hP0 r) (hP1 r) (hP2 r) (hP3 r)]

end Cert.Proof.KernelIsTarget

end
-- ==== Proof.Finite.lean ====
/-
  The precondition "every float input is finite", read back at the ideal instance: the two argument
  arrays h (100000 × 128) and W1 (512 × 128) hold real numbers at every index.

  At the ideal instance a float is an extended real. The precondition is the conjunction, over the nine
  float arguments, of "every entry x has |x| < +∞", where |x| = max x (-x) and +∞ is what the f32
  pattern 0x7F800000 denotes, the top element. An extended real whose absolute value is below the top
  element is neither top nor bottom, hence the image of a real number.
-/
import proofs.«140650_j55198919688258_1_alg».proof.Defs
import Idealize.ShloMosaic.Lib.ReduceAll
import Idealize.ShloMosaic.Lib.IdealHost
import Idealize.ShloMosaic.Lib.ValueIdx

namespace Cert.Proof.Finite

open Idealize.ShloMosaic Idealize.SL.Sem

/-- The shape with no axes has exactly one index. -/
instance : Subsingleton Cert.Pre_finite_inputs.S_.Idx := ⟨fun a b => funext fun d => d.elim0⟩

/-- The f32 pattern 0x7F800000 denotes the top element of the extended reals. -/
theorem ofBits_inf : Ideal.ofBits .f32 0x7F800000#32 = (⊤ : EReal) := by
  simp [Ideal.ofBits, Ideal.ieee]

/-- An extended real x with max x (-x) < ⊤ (as the ordered comparison yielding the one-bit word 1)
    is the image of a real number. -/
theorem real_of_abs_lt_top (x : EReal)
    (h : Ideal.cmp .olt (max x (-x)) (Ideal.ofBits .f32 0x7F800000#32) = 1#1) :
    ∃ r : ℝ, x = ((r : ℝ) : EReal) := by
  rw [ofBits_inf] at h
  induction x using EReal.rec with
  | bot => simp [Ideal.cmp] at h
  | coe r => exact ⟨r, rfl⟩
  | top => simp [Ideal.cmp] at h

/-- A pointwise conjunction of one-bit arrays that is 1 at an index has both operands 1 there. -/
theorem andi_apply_eq_one {s : Shape} {x y : IVec s 1} {j : s.Idx} (h : andi x y j = 1#1) :
    x j = 1#1 ∧ y j = 1#1 := IntOp.andi_eq_one.1 h

/-- An entry x of an array whose comparison "|x| < +∞" against the broadcast f32 pattern 0x7F800000 yields 1
    is a real number. -/
theorem real_of_cmpf {s : Shape} (h : Cert.Pre_finite_inputs.S_.BroadcastsInDim s ![])
    (x : FVec Ideal s .f32) (i : s.Idx)
    (e : cmpf .olt (Host.absf x)
      (broadcastInDim s ![] h (constant Cert.Pre_finite_inputs.S_ .f32 0x7F800000#32)) i = 1#1) :
    ∃ r : ℝ, x i = ((r : ℝ) : EReal) := by
  have hb : broadcastInDim s ![] h (constant (F := Ideal) Cert.Pre_finite_inputs.S_ .f32 0x7F800000#32) i
      = Ideal.ofBits .f32 0x7F800000#32 := ValueIdx.broadcastInDim_scalar_apply h _ i
  have e' : Ideal.cmp .olt (max (x i) (-(x i)))
      (broadcastInDim s ![] h (constant (F := Ideal) Cert.Pre_finite_inputs.S_ .f32 0x7F800000#32) i) = 1#1 := e
  rw [hb] at e'
  exact real_of_abs_lt_top (x i) e'

/-- Every entry of the argument array h (100000 × 128) of a memory satisfying the precondition is a real number. -/
theorem real_h
    (m : (ℓ : Loc Cert.KernelIdeal.nD Cert.KernelIdeal.τ Cert.KernelIdeal.sig) → Buf (Elt Ideal) ℓ)
    [Cert.Pre_finite_inputs.Facts] (hpre : Cert.Pre_KernelIdeal m) (c : Dev Cert.KernelIdeal.nD)
    (i : Cert.KernelIdeal.S100000x128.Idx) :
    ∃ r : ℝ, m ((c.tc : Thread Cert.KernelIdeal.nD Cert.KernelIdeal.τ).loc Cert.KernelIdeal.main_arg0) i
      = ((r : ℝ) : EReal) := by
  have h0 := congrFun (hpre c) ValueIdx.ix0
  dsimp only [Cert.Pre_finite_inputs.fn, Cert.Pre_finite_inputs.fn_part1, Cert.Pre_finite_inputs.fn_part2] at h0
  have h1 := (andi_apply_eq_one h0).1
  have h2 := (andi_apply_eq_one h1).1
  have h3 := (andi_apply_eq_one h2).1
  have h4 := (andi_apply_eq_one h3).1
  have h5 := (andi_apply_eq_one h4).1
  have h6 := (andi_apply_eq_one h5).1
  have h7 := (andi_apply_eq_one h6).1
  obtain ⟨hh, hW⟩ := andi_apply_eq_one h7
  exact real_of_cmpf _ _ i (Host.reduce_andi_all _ _ _ _ ValueIdx.ix0 hh i)

/-- Every entry of the argument array W1 (512 × 128) of a memory satisfying the precondition is a real number. -/
theorem real_W1
    (m : (ℓ : Loc Cert.KernelIdeal.nD Cert.KernelIdeal.τ Cert.KernelIdeal.sig) → Buf (Elt Ideal) ℓ)
    [Cert.Pre_finite_inputs.Facts] (hpre : Cert.Pre_KernelIdeal m) (c : Dev Cert.KernelIdeal.nD)
    (i : Cert.KernelIdeal.S512x128.Idx) :
    ∃ r : ℝ, m ((c.tc : Thread Cert.KernelIdeal.nD Cert.KernelIdeal.τ).loc Cert.KernelIdeal.main_arg5) i
      = ((r : ℝ) : EReal) := by
  have h0 := congrFun (hpre c) ValueIdx.ix0
  dsimp only [Cert.Pre_finite_inputs.fn, Cert.Pre_finite_inputs.fn_part1, Cert.Pre_finite_inputs.fn_part2] at h0
  have h1 := (andi_apply_eq_one h0).1
  have h2 := (andi_apply_eq_one h1).1
  have h3 := (andi_apply_eq_one h2).1
  have h4 := (andi_apply_eq_one h3).1
  have h5 := (andi_apply_eq_one h4).1
  have h6 := (andi_apply_eq_one h5).1
  have h7 := (andi_apply_eq_one h6).1
  obtain ⟨hh, hW⟩ := andi_apply_eq_one h7
  exact real_of_cmpf _ _ i (Host.reduce_andi_all _ _ _ _ ValueIdx.ix0 hW i)

end Cert.Proof.Finite
-- ==== Proof.KernelRun.lean ====
/-
  The idealized kernel's run, read: every weakly fair execution terminates with the result array at the target
  function of the argument arrays and the arguments unchanged. After the region the host keeps the first 300000 rows
  of the kernel's 301056 x 6 output; on those rows the padded index vectors are the given ones, and — the table and
  the first weight holding real numbers under the precondition — the kernel's first layer with its combined weights
  is the target's first layer block by block.
-/
import proofs.«140650_j55198919688258_1_alg».proof.Proof.Gen.KernelIdeal.Frame
import proofs.«140650_j55198919688258_1_alg».proof.Proof.KernelFinal
import proofs.«140650_j55198919688258_1_alg».proof.Proof.KernelIsTarget
import proofs.«140650_j55198919688258_1_alg».proof.Proof.KernelHostA
import proofs.«140650_j55198919688258_1_alg».proof.Proof.Finite
import Idealize.ShloMosaic.Lib.StableHlo.Run
import Idealize.ShloMosaic.Lib.ValueLayout

set_option maxRecDepth 16384

noncomputable section

namespace Cert.Proof.KernelRun

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.Proof

variable [Cert.KernelIdeal.Facts] [Cert.Pre_finite_inputs.Facts]

variable (m : (ℓ : Loc nD τ sig) → Buf (Elt Ideal) ℓ) (ρ : Dev nD → PrngReg)

/-- The result array after the host's final slice, at (r, q): the kernel's output array at the same place. -/
theorem tail_apply (c : Dev nD) (r : Fin 300000) (q : Fin 6) :
    (Pipeline.afterTail₀ cfgs (dats m) 0 (V0 m) [hostOps1] c main_v45 : S300000x6.Idx → EReal) (ix2 r q)
      = KernelFinal.GKm m c (ix2 (⟨r.val, by have := r.isLt; omega⟩ : Fin 301056) q) := by
  unfold Pipeline.afterTail₀
  show (StableHlo.after (hostOps1 (F := Ideal)) _ (Proc.devRef .tc main_v45) : S300000x6.Idx → EReal) (ix2 r q) = _
  after_results
  rw [Pipeline.withArrays_arr spec0 launch0.win.arr_inj c _ _ 13]
  show extractStridedSlice S300000x6 ![0, 0] ((dats m 0 c).arrAt 13 cfg0.N) _ (ix2 r q) = _
  rw [KernelFinal.final13 m c]
  exact slice2_axis0_apply 0 _ _ r q _ (by show r.val = 0 + r.val; omega)

/-- The result array after the run is the target function of the argument arrays. -/
theorem result_eq (hpre : Cert.Pre_KernelIdeal m) (c : Dev nD) :
    (Pipeline.afterTail₀ cfgs (dats m) 0 (V0 m) [hostOps1] c main_v45 : S300000x6.Idx → EReal)
      = Target.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  funext y
  obtain ⟨r, q, rfl⟩ : ∃ (r : Fin 300000) (q : Fin 6), y = ix2 r q := ⟨y 0, y 1, eq_ix2 y⟩
  rw [tail_apply m c r q]
  exact KernelIsTarget.GK_eq_G _ _ _ _ _ _ _ _ _ _ _ _ _ _ _ _ _
    (fun i => Finite.real_h m hpre c i) (fun i => Finite.real_W1 m hpre c i)
    (fun r => KernelHostA.V_v0_inside m c r) (fun r => KernelHostA.V_v1_inside m c r)
    (fun r => KernelHostA.V_v2_inside m c r) (fun r => KernelHostA.V_v3_inside m c r) r q

/-- THE RUN, READ: the result at the target function of the arguments, the arguments unchanged. -/
theorem run (hpre : Cert.Pre_KernelIdeal m) :
    θ_run defs (onTc (τ := τ) (main (F := Ideal))) ⟨m, fun _ => 0, ρ⟩ (fun r => ∀ c : Dev nD,
      r.2.mem ((c.tc : Thread nD τ).loc main_v45) = Target.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_v45 (Pipeline.mem_restRefs_of main_v45 (by decide) (by decide))).trans (result_eq m hpre c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      ((h c).1 6).trans (((dats m 0 c).arrAt_in 6 rfl _).trans ((A_eq m c 6).trans (V_main_arg7 m c))),
      (((h c).2 main_arg8 (Pipeline.mem_restRefs_of main_arg8 (by decide) (by decide))).trans (W_main_arg8 m (dats m) c)),
      ((h c).1 7).trans (((dats m 0 c).arrAt_in 7 rfl _).trans ((A_eq m c 7).trans (V_main_arg9 m c))),
      (((h c).2 main_arg10 (Pipeline.mem_restRefs_of main_arg10 (by decide) (by decide))).trans (W_main_arg10 m (dats m) c)),
      ((h c).1 8).trans (((dats m 0 c).arrAt_in 8 rfl _).trans ((A_eq m c 8).trans (V_main_arg11 m c))),
      (((h c).2 main_arg12 (Pipeline.mem_restRefs_of main_arg12 (by decide) (by decide))).trans (W_main_arg12 m (dats m) c))⟩) (run_main m ρ)

end Cert.Proof.KernelRun

end
-- ==== Proof.RefIsTarget.lean ====
/-
  The reference program's result is the target function.

  The reference gathers four rows of the table per result row (each index first normalised: a negative index i
  stands for i + 100000; then clamped by the gather), lays them side by side in three orders, adds the three
  512-wide rows, and applies an affine layer 512 -> 128, three rectifier/affine steps, ending with 6 outputs.
  Read at an index, every step is re-indexing; the 512-term sum of the first layer is cut into its four blocks
  of 128, on which the three side-by-side layouts read the four gathered rows in the orders the target spells.
-/
import proofs.«140650_j55198919688258_1_alg».proof.Proof.Gen.ReferenceIdeal.Read
import proofs.«140650_j55198919688258_1_alg».proof.Proof.Target
import proofs.«140650_j55198919688258_1_alg».proof.Proof.LibRowGather
import Idealize.ShloMosaic.Lib.ValueIdx
import Idealize.ShloMosaic.Lib.Pipeline.Value
import Idealize.ShloMosaic.PureOps.Ideal.Laws

noncomputable section

namespace Cert.Proof.RefIsTarget

open Cert.ReferenceIdeal Cert.ReferenceIdeal.Read Idealize.ShloMosaic Idealize.ShloMosaic.ValueIdx Cert.Proof

variable [Cert.ReferenceIdeal.Facts]

/-- The index array a gather reads, at (r, 0), is the normalised index of row r. -/
theorem idx_v5 (x1 : (⟨S300000, .i32⟩ : BufTy).Contents (Elt Ideal)) (r : Fin 300000) :
    val_main_v5 (F := Ideal) x1 (ix2 r (0 : Fin 1)) = Target.nidx (x1 (ix1 r)) := by
  have e : idx_main_v5 (ix2 r (0 : Fin 1)) = ix1 r := funext fun a => Fin.ext (by match a with | ⟨0, _⟩ => rfl)
  rw [val_main_v5_apply, e, val_main_v4_apply, val_main_v1_apply, val_main_v3_apply, val_main_v0_apply,
    val_main_v2_apply]
  rfl

/-- The index array a gather reads, at (r, 0), is the normalised index of row r. -/
theorem idx_v12 (x2 : (⟨S300000, .i32⟩ : BufTy).Contents (Elt Ideal)) (r : Fin 300000) :
    val_main_v12 (F := Ideal) x2 (ix2 r (0 : Fin 1)) = Target.nidx (x2 (ix1 r)) := by
  have e : idx_main_v12 (ix2 r (0 : Fin 1)) = ix1 r := funext fun a => Fin.ext (by match a with | ⟨0, _⟩ => rfl)
  rw [val_main_v12_apply, e, val_main_v11_apply, val_main_v8_apply, val_main_v10_apply, val_main_v7_apply,
    val_main_v9_apply]
  rfl

/-- The index array a gather reads, at (r, 0), is the normalised index of row r. -/
theorem idx_v19 (x3 : (⟨S300000, .i32⟩ : BufTy).Contents (Elt Ideal)) (r : Fin 300000) :
    val_main_v19 (F := Ideal) x3 (ix2 r (0 : Fin 1)) = Target.nidx (x3 (ix1 r)) := by
  have e : idx_main_v19 (ix2 r (0 : Fin 1)) = ix1 r := funext fun a => Fin.ext (by match a with | ⟨0, _⟩ => rfl)
  rw [val_main_v19_apply, e, val_main_v18_apply, val_main_v15_apply, val_main_v17_apply, val_main_v14_apply,
    val_main_v16_apply]
  rfl

/-- The index array a gather reads, at (r, 0), is the normalised index of row r. -/
theorem idx_v26 (x4 : (⟨S300000, .i32⟩ : BufTy).Contents (Elt Ideal)) (r : Fin 300000) :
    val_main_v26 (F := Ideal) x4 (ix2 r (0 : Fin 1)) = Target.nidx (x4 (ix1 r)) := by
  have e : idx_main_v26 (ix2 r (0 : Fin 1)) = ix1 r := funext fun a => Fin.ext (by match a with | ⟨0, _⟩ => rfl)
  rw [val_main_v26_apply, e, val_main_v25_apply, val_main_v22_apply, val_main_v24_apply, val_main_v21_apply,
    val_main_v23_apply]
  rfl

/-- A gathered array at (r, k) is entry k of the table row the normalised, clamped index of row r names. -/
theorem gather_v6 (x0 : (⟨S100000x128, .f32⟩ : BufTy).Contents (Elt Ideal))
    (x1 : (⟨S300000, .i32⟩ : BufTy).Contents (Elt Ideal)) (r : Fin 300000) (k : Fin 128) :
    val_main_v6 (F := Ideal) x0 x1 (ix2 r k) = Target.grow x0 (x1 (ix1 r)) k := by
  unfold val_main_v6
  refine (RowGather.gather_row_apply (N := 100000) (C := 128) (R := 300000) (by decide) _ x0
    (val_main_v5 (F := Ideal) x1) r k).trans ?_
  unfold Target.grow
  simp only [idx_v5]

/-- A gathered array at (r, k) is entry k of the table row the normalised, clamped index of row r names. -/
theorem gather_v13 (x0 : (⟨S100000x128, .f32⟩ : BufTy).Contents (Elt Ideal))
    (x2 : (⟨S300000, .i32⟩ : BufTy).Contents (Elt Ideal)) (r : Fin 300000) (k : Fin 128) :
    val_main_v13 (F := Ideal) x0 x2 (ix2 r k) = Target.grow x0 (x2 (ix1 r)) k := by
  unfold val_main_v13
  refine (RowGather.gather_row_apply (N := 100000) (C := 128) (R := 300000) (by decide) _ x0
    (val_main_v12 (F := Ideal) x2) r k).trans ?_
  unfold Target.grow
  simp only [idx_v12]

/-- A gathered array at (r, k) is entry k of the table row the normalised, clamped index of row r names. -/
theorem gather_v20 (x0 : (⟨S100000x128, .f32⟩ : BufTy).Contents (Elt Ideal))
    (x3 : (⟨S300000, .i32⟩ : BufTy).Contents (Elt Ideal)) (r : Fin 300000) (k : Fin 128) :
    val_main_v20 (F := Ideal) x0 x3 (ix2 r k) = Target.grow x0 (x3 (ix1 r)) k := by
  unfold val_main_v20
  refine (RowGather.gather_row_apply (N := 100000) (C := 128) (R := 300000) (by decide) _ x0
    (val_main_v19 (F := Ideal) x3) r k).trans ?_
  unfold Target.grow
  simp only [idx_v19]

/-- A gathered array at (r, k) is entry k of the table row the normalised, clamped index of row r names. -/
theorem gather_v27 (x0 : (⟨S100000x128, .f32⟩ : BufTy).Contents (Elt Ideal))
    (x4 : (⟨S300000, .i32⟩ : BufTy).Contents (Elt Ideal)) (r : Fin 300000) (k : Fin 128) :
    val_main_v27 (F := Ideal) x0 x4 (ix2 r k) = Target.grow x0 (x4 (ix1 r)) k := by
  unfold val_main_v27
  refine (RowGather.gather_row_apply (N := 100000) (C := 128) (R := 300000) (by decide) _ x0
    (val_main_v26 (F := Ideal) x4) r k).trans ?_
  unfold Target.grow
  simp only [idx_v26]

/-- Four arrays 300000 x 128 laid side by side along axis 1, read at column 128 * 0 + k, give piece 0 at column k. -/
theorem concat4_blk0 {α : Type} (p0 p1 p2 p3 : S300000x128.Idx → α)
    (h : Shape.Concatenates [S300000x128, S300000x128, S300000x128, S300000x128] S300000x512 1)
    (r : Fin 300000) (k : Fin 128) :
    concatenate S300000x512 1 [⟨S300000x128, p0⟩, ⟨S300000x128, p1⟩, ⟨S300000x128, p2⟩, ⟨S300000x128, p3⟩] h
      (ix2 r (Mlp.blk 0 k)) = p0 (ix2 r k) := by
  refine concatenate_apply_piece (1 : Fin S300000x512.rank)
    [⟨S300000x128, p0⟩, ⟨S300000x128, p1⟩, ⟨S300000x128, p2⟩, ⟨S300000x128, p3⟩] h (ix2 r (Mlp.blk 0 k)) 0
    (show 0 < 4 by decide) S300000x128 p0 rfl rfl (128 * 0) rfl (ix2 r k) ?_ ?_
  · intro b hb
    match b with
    | ⟨0, _⟩ => rfl
    | ⟨1, _⟩ => exact absurd rfl hb
  · rfl

/-- Four arrays 300000 x 128 laid side by side along axis 1, read at column 128 * 1 + k, give piece 1 at column k. -/
theorem concat4_blk1 {α : Type} (p0 p1 p2 p3 : S300000x128.Idx → α)
    (h : Shape.Concatenates [S300000x128, S300000x128, S300000x128, S300000x128] S300000x512 1)
    (r : Fin 300000) (k : Fin 128) :
    concatenate S300000x512 1 [⟨S300000x128, p0⟩, ⟨S300000x128, p1⟩, ⟨S300000x128, p2⟩, ⟨S300000x128, p3⟩] h
      (ix2 r (Mlp.blk 1 k)) = p1 (ix2 r k) := by
  refine concatenate_apply_piece (1 : Fin S300000x512.rank)
    [⟨S300000x128, p0⟩, ⟨S300000x128, p1⟩, ⟨S300000x128, p2⟩, ⟨S300000x128, p3⟩] h (ix2 r (Mlp.blk 1 k)) 1
    (show 1 < 4 by decide) S300000x128 p1 rfl rfl (128 * 1) rfl (ix2 r k) ?_ ?_
  · intro b hb
    match b with
    | ⟨0, _⟩ => rfl
    | ⟨1, _⟩ => exact absurd rfl hb
  · rfl

/-- Four arrays 300000 x 128 laid side by side along axis 1, read at column 128 * 2 + k, give piece 2 at column k. -/
theorem concat4_blk2 {α : Type} (p0 p1 p2 p3 : S300000x128.Idx → α)
    (h : Shape.Concatenates [S300000x128, S300000x128, S300000x128, S300000x128] S300000x512 1)
    (r : Fin 300000) (k : Fin 128) :
    concatenate S300000x512 1 [⟨S300000x128, p0⟩, ⟨S300000x128, p1⟩, ⟨S300000x128, p2⟩, ⟨S300000x128, p3⟩] h
      (ix2 r (Mlp.blk 2 k)) = p2 (ix2 r k) := by
  refine concatenate_apply_piece (1 : Fin S300000x512.rank)
    [⟨S300000x128, p0⟩, ⟨S300000x128, p1⟩, ⟨S300000x128, p2⟩, ⟨S300000x128, p3⟩] h (ix2 r (Mlp.blk 2 k)) 2
    (show 2 < 4 by decide) S300000x128 p2 rfl rfl (128 * 2) rfl (ix2 r k) ?_ ?_
  · intro b hb
    match b with
    | ⟨0, _⟩ => rfl
    | ⟨1, _⟩ => exact absurd rfl hb
  · rfl

/-- Four arrays 300000 x 128 laid side by side along axis 1, read at column 128 * 3 + k, give piece 3 at column k. -/
theorem concat4_blk3 {α : Type} (p0 p1 p2 p3 : S300000x128.Idx → α)
    (h : Shape.Concatenates [S300000x128, S300000x128, S300000x128, S300000x128] S300000x512 1)
    (r : Fin 300000) (k : Fin 128) :
    concatenate S300000x512 1 [⟨S300000x128, p0⟩, ⟨S300000x128, p1⟩, ⟨S300000x128, p2⟩, ⟨S300000x128, p3⟩] h
      (ix2 r (Mlp.blk 3 k)) = p3 (ix2 r k) := by
  refine concatenate_apply_piece (1 : Fin S300000x512.rank)
    [⟨S300000x128, p0⟩, ⟨S300000x128, p1⟩, ⟨S300000x128, p2⟩, ⟨S300000x128, p3⟩] h (ix2 r (Mlp.blk 3 k)) 3
    (show 3 < 4 by decide) S300000x128 p3 rfl rfl (128 * 3) rfl (ix2 r k) ?_ ?_
  · intro b hb
    match b with
    | ⟨0, _⟩ => rfl
    | ⟨1, _⟩ => exact absurd rfl hb
  · rfl

/-- The pooled row at column 128 * 0 + k: the three side-by-side layouts read three gathered rows at column k. -/
theorem v32_blk0 (x0 : (⟨S100000x128, .f32⟩ : BufTy).Contents (Elt Ideal))
    (x1 x2 x3 x4 : (⟨S300000, .i32⟩ : BufTy).Contents (Elt Ideal)) (r : Fin 300000) (k : Fin 128) :
    val_main_v32 (F := Ideal) x0 x1 x2 x3 x4 (ix2 r (Mlp.blk 0 k))
      = (Target.grow x0 (x1 (ix1 r)) k + Target.grow x0 (x3 (ix1 r)) k) + Target.grow x0 (x4 (ix1 r)) k := by
  rw [val_main_v32_apply, val_main_v30_apply]
  unfold val_main_v28 val_main_v29 val_main_v31
  rw [concat4_blk0, concat4_blk0, concat4_blk0]
  simp only [gather_v6, gather_v13, gather_v20, gather_v27]
  rfl

/-- The pooled row at column 128 * 1 + k: the three side-by-side layouts read three gathered rows at column k. -/
theorem v32_blk1 (x0 : (⟨S100000x128, .f32⟩ : BufTy).Contents (Elt Ideal))
    (x1 x2 x3 x4 : (⟨S300000, .i32⟩ : BufTy).Contents (Elt Ideal)) (r : Fin 300000) (k : Fin 128) :
    val_main_v32 (F := Ideal) x0 x1 x2 x3 x4 (ix2 r (Mlp.blk 1 k))
      = (Target.grow x0 (x2 (ix1 r)) k + Target.grow x0 (x2 (ix1 r)) k) + Target.grow x0 (x2 (ix1 r)) k := by
  rw [val_main_v32_apply, val_main_v30_apply]
  unfold val_main_v28 val_main_v29 val_main_v31
  rw [concat4_blk1, concat4_blk1, concat4_blk1]
  simp only [gather_v6, gather_v13, gather_v20, gather_v27]
  rfl

/-- The pooled row at column 128 * 2 + k: the three side-by-side layouts read three gathered rows at column k. -/
theorem v32_blk2 (x0 : (⟨S100000x128, .f32⟩ : BufTy).Contents (Elt Ideal))
    (x1 x2 x3 x4 : (⟨S300000, .i32⟩ : BufTy).Contents (Elt Ideal)) (r : Fin 300000) (k : Fin 128) :
    val_main_v32 (F := Ideal) x0 x1 x2 x3 x4 (ix2 r (Mlp.blk 2 k))
      = (Target.grow x0 (x3 (ix1 r)) k + Target.grow x0 (x4 (ix1 r)) k) + Target.grow x0 (x1 (ix1 r)) k := by
  rw [val_main_v32_apply, val_main_v30_apply]
  unfold val_main_v28 val_main_v29 val_main_v31
  rw [concat4_blk2, concat4_blk2, concat4_blk2]
  simp only [gather_v6, gather_v13, gather_v20, gather_v27]
  rfl

/-- The pooled row at column 128 * 3 + k: the three side-by-side layouts read three gathered rows at column k. -/
theorem v32_blk3 (x0 : (⟨S100000x128, .f32⟩ : BufTy).Contents (Elt Ideal))
    (x1 x2 x3 x4 : (⟨S300000, .i32⟩ : BufTy).Contents (Elt Ideal)) (r : Fin 300000) (k : Fin 128) :
    val_main_v32 (F := Ideal) x0 x1 x2 x3 x4 (ix2 r (Mlp.blk 3 k))
      = (Target.grow x0 (x4 (ix1 r)) k + Target.grow x0 (x1 (ix1 r)) k) + Target.grow x0 (x3 (ix1 r)) k := by
  rw [val_main_v32_apply, val_main_v30_apply]
  unfold val_main_v28 val_main_v29 val_main_v31
  rw [concat4_blk3, concat4_blk3, concat4_blk3]
  simp only [gather_v6, gather_v13, gather_v20, gather_v27]
  rfl

/-- The first affine layer at (r, j) is the target's first layer of row r at j. -/
theorem v36_eq (x0 : (⟨S100000x128, .f32⟩ : BufTy).Contents (Elt Ideal))
    (x1 x2 x3 x4 : (⟨S300000, .i32⟩ : BufTy).Contents (Elt Ideal)) (x5 : (⟨S512x128, .f32⟩ : BufTy).Contents (Elt Ideal))
    (x6 : (⟨S128, .f32⟩ : BufTy).Contents (Elt Ideal)) (r : Fin 300000) (j : Fin 128) :
    val_main_v36 (F := Ideal) x0 x1 x2 x3 x4 x5 x6 (ix2 r j) = Target.first x0 x1 x2 x3 x4 x5 x6 r j := by
  have el : ∀ e : Fin 512, lidx_main_v33 (ix2 r j) e = ix2 r e := fun e => funext fun a => Fin.ext (by
    match a with | ⟨0, _⟩ => rfl | ⟨1, _⟩ => rfl)
  have er : ∀ e : Fin 512, ridx_main_v33 (ix2 r j) e = ix2 e j := fun e => funext fun a => Fin.ext (by
    match a with | ⟨0, _⟩ => rfl | ⟨1, _⟩ => rfl)
  have eb : idx_main_v34 (idx_main_v35 (ix2 r j)) = ix1 j := funext fun a => Fin.ext (by
    match a with | ⟨0, _⟩ => rfl)
  rw [val_main_v36_apply, val_main_v33_apply, val_main_v35_apply, val_main_v34_apply, eb]
  simp only [el, er]
  rw [Mlp.sum_512_blocks]
  simp only [v32_blk0, v32_blk1, v32_blk2, v32_blk3]
  rfl

/-- The first rectifier at (r, j). -/
theorem v37_eq (x0 : (⟨S100000x128, .f32⟩ : BufTy).Contents (Elt Ideal))
    (x1 x2 x3 x4 : (⟨S300000, .i32⟩ : BufTy).Contents (Elt Ideal)) (x5 : (⟨S512x128, .f32⟩ : BufTy).Contents (Elt Ideal))
    (x6 : (⟨S128, .f32⟩ : BufTy).Contents (Elt Ideal)) (r : Fin 300000) (j : Fin 128) :
    val_main_v37 (F := Ideal) x0 x1 x2 x3 x4 x5 x6 (ix2 r j) = Mlp.relu Target.zero (Target.first x0 x1 x2 x3 x4 x5 x6 r) j := by
  rw [val_main_v37_apply, val_main_call0_v0_apply, val_main_call0_cst_apply, v36_eq]
  rfl

/-- The second affine layer at (r, j). -/
theorem v41_eq (x0 : (⟨S100000x128, .f32⟩ : BufTy).Contents (Elt Ideal))
    (x1 x2 x3 x4 : (⟨S300000, .i32⟩ : BufTy).Contents (Elt Ideal)) (x5 : (⟨S512x128, .f32⟩ : BufTy).Contents (Elt Ideal))
    (x6 : (⟨S128, .f32⟩ : BufTy).Contents (Elt Ideal)) (x7 : (⟨S128x128, .f32⟩ : BufTy).Contents (Elt Ideal)) (x8 : (⟨S128, .f32⟩ : BufTy).Contents (Elt Ideal)) (r : Fin 300000) (j : Fin 128) :
    val_main_v41 (F := Ideal) x0 x1 x2 x3 x4 x5 x6 x7 x8 (ix2 r j) = Mlp.dense (Mlp.relu Target.zero (Target.first x0 x1 x2 x3 x4 x5 x6 r)) (fun k j => x7 (ix2 k j)) (fun j => x8 (ix1 j)) j := by
  have el : ∀ e : Fin 128, lidx_main_v38 (ix2 r j) e = ix2 r e := fun e => funext fun a => Fin.ext (by
    match a with | ⟨0, _⟩ => rfl | ⟨1, _⟩ => rfl)
  have er : ∀ e : Fin 128, ridx_main_v38 (ix2 r j) e = ix2 e j := fun e => funext fun a => Fin.ext (by
    match a with | ⟨0, _⟩ => rfl | ⟨1, _⟩ => rfl)
  have eb : idx_main_v39 (idx_main_v40 (ix2 r j)) = ix1 j := funext fun a => Fin.ext (by
    match a with | ⟨0, _⟩ => rfl)
  rw [val_main_v41_apply, val_main_v38_apply, val_main_v40_apply, val_main_v39_apply, eb]
  simp only [el, er, v37_eq]
  rfl

/-- The second rectifier at (r, j). -/
theorem v42_eq (x0 : (⟨S100000x128, .f32⟩ : BufTy).Contents (Elt Ideal))
    (x1 x2 x3 x4 : (⟨S300000, .i32⟩ : BufTy).Contents (Elt Ideal)) (x5 : (⟨S512x128, .f32⟩ : BufTy).Contents (Elt Ideal))
    (x6 : (⟨S128, .f32⟩ : BufTy).Contents (Elt Ideal)) (x7 : (⟨S128x128, .f32⟩ : BufTy).Contents (Elt Ideal)) (x8 : (⟨S128, .f32⟩ : BufTy).Contents (Elt Ideal)) (r : Fin 300000) (j : Fin 128) :
    val_main_v42 (F := Ideal) x0 x1 x2 x3 x4 x5 x6 x7 x8 (ix2 r j) = Mlp.relu Target.zero (Mlp.dense (Mlp.relu Target.zero (Target.first x0 x1 x2 x3 x4 x5 x6 r)) (fun k j => x7 (ix2 k j)) (fun j => x8 (ix1 j))) j := by
  rw [val_main_v42_apply, val_main_call1_v0_apply, val_main_call1_cst_apply, v41_eq]
  rfl

/-- The third affine layer at (r, j). -/
theorem v46_eq (x0 : (⟨S100000x128, .f32⟩ : BufTy).Contents (Elt Ideal))
    (x1 x2 x3 x4 : (⟨S300000, .i32⟩ : BufTy).Contents (Elt Ideal)) (x5 : (⟨S512x128, .f32⟩ : BufTy).Contents (Elt Ideal))
    (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (r : Fin 300000) (j : Fin 128) :
    val_main_v46 (F := Ideal) x0 x1 x2 x3 x4 x5 x6 x7 x8 x9 x10 (ix2 r j) = Mlp.dense (Mlp.relu Target.zero (Mlp.dense (Mlp.relu Target.zero (Target.first x0 x1 x2 x3 x4 x5 x6 r)) (fun k j => x7 (ix2 k j)) (fun j => x8 (ix1 j)))) (fun k j => x9 (ix2 k j)) (fun j => x10 (ix1 j)) j := by
  have el : ∀ e : Fin 128, lidx_main_v43 (ix2 r j) e = ix2 r e := fun e => funext fun a => Fin.ext (by
    match a with | ⟨0, _⟩ => rfl | ⟨1, _⟩ => rfl)
  have er : ∀ e : Fin 128, ridx_main_v43 (ix2 r j) e = ix2 e j := fun e => funext fun a => Fin.ext (by
    match a with | ⟨0, _⟩ => rfl | ⟨1, _⟩ => rfl)
  have eb : idx_main_v44 (idx_main_v45 (ix2 r j)) = ix1 j := funext fun a => Fin.ext (by
    match a with | ⟨0, _⟩ => rfl)
  rw [val_main_v46_apply, val_main_v43_apply, val_main_v45_apply, val_main_v44_apply, eb]
  simp only [el, er, v42_eq]
  rfl

/-- The third rectifier at (r, j). -/
theorem v47_eq (x0 : (⟨S100000x128, .f32⟩ : BufTy).Contents (Elt Ideal))
    (x1 x2 x3 x4 : (⟨S300000, .i32⟩ : BufTy).Contents (Elt Ideal)) (x5 : (⟨S512x128, .f32⟩ : BufTy).Contents (Elt Ideal))
    (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (r : Fin 300000) (j : Fin 128) :
    val_main_v47 (F := Ideal) x0 x1 x2 x3 x4 x5 x6 x7 x8 x9 x10 (ix2 r j) = Mlp.relu Target.zero (Mlp.dense (Mlp.relu Target.zero (Mlp.dense (Mlp.relu Target.zero (Target.first x0 x1 x2 x3 x4 x5 x6 r)) (fun k j => x7 (ix2 k j)) (fun j => x8 (ix1 j)))) (fun k j => x9 (ix2 k j)) (fun j => x10 (ix1 j))) j := by
  rw [val_main_v47_apply, val_main_call2_v0_apply, val_main_call2_cst_apply, v46_eq]
  rfl

/-- The reference program's result is the target function of its arguments. -/
theorem ref_eq (x0 : (⟨S100000x128, .f32⟩ : BufTy).Contents (Elt Ideal))
    (x1 x2 x3 x4 : (⟨S300000, .i32⟩ : BufTy).Contents (Elt Ideal)) (x5 : (⟨S512x128, .f32⟩ : BufTy).Contents (Elt Ideal))
    (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal))
    (x11 : (⟨S128x6, .f32⟩ : BufTy).Contents (Elt Ideal)) (x12 : (⟨S6, .f32⟩ : BufTy).Contents (Elt Ideal)) :
    val_main_v51 (F := Ideal) x0 x1 x2 x3 x4 x5 x6 x7 x8 x9 x10 x11 x12
      = Target.G x0 x1 x2 x3 x4 x5 x6 x7 x8 x9 x10 x11 x12 := by
  funext y
  obtain ⟨r, q, rfl⟩ : ∃ (r : Fin 300000) (q : Fin 6), y = ix2 r q := ⟨y 0, y 1, eq_ix2 y⟩
  have el : ∀ e : Fin 128, lidx_main_v48 (ix2 r q) e = ix2 r e := fun e => funext fun a => Fin.ext (by
    match a with | ⟨0, _⟩ => rfl | ⟨1, _⟩ => rfl)
  have er : ∀ e : Fin 128, ridx_main_v48 (ix2 r q) e = ix2 e q := fun e => funext fun a => Fin.ext (by
    match a with | ⟨0, _⟩ => rfl | ⟨1, _⟩ => rfl)
  have eb : idx_main_v49 (idx_main_v50 (ix2 r q)) = ix1 q := funext fun a => Fin.ext (by
    match a with | ⟨0, _⟩ => rfl)
  rw [val_main_v51_apply, val_main_v48_apply, val_main_v50_apply, val_main_v49_apply, eb]
  simp only [el, er, v47_eq]
  rfl

end Cert.Proof.RefIsTarget

end
-- ==== Proof.lean ====
/-
  The certificate of a pooled four-row multilayer perceptron against its jnp reference, on the extended reals.

  Both programs gather, for each of 300000 result rows, four rows g0 g1 g2 g3 of a 100000 x 128 table (the same
  index normalisation and the same clamped gather on both sides; the kernel first pads the four index vectors with
  zeros to 301056 = 147 * 2048 entries and cuts the 1056 extra result rows off at the end). The reference adds the
  three concatenations [g0 g1 g2 g3] + [g2 g1 g3 g0] + [g3 g1 g0 g2] into a 512-wide row, multiplies by the
  512 x 128 weight W1 and adds the bias. The kernel instead forms s = (g0 + g2) + g3 and multiplies it by the combined
  weight (A + C) + D of the blocks 0, 2, 3 of W1, adds g1 times 3 B for block 1, and adds the bias. The three
  512-wide rows differ from (s, 3 g1, s, s) only in the order of three-term sums, so the two first layers agree by
  the block split of the 512-term sum and distributivity — which on the extended reals needs the entries of the
  table and of W1 to be real numbers: exactly what the precondition "every float input is finite" provides. After
  the first layer both sides apply the same rectifier / affine chain (a change of float format is the identity on
  the extended reals; a matrix product into a zero accumulator is the plain sum of products), so equality of the
  first layers carries through.

  The kernel is one region of 147 grid points; point t computes rows 2048 t … 2048 t + 2047 from the matching
  blocks of the four gathered arrays and the resident weights, and the 147 output blocks tile the 301056 rows.
  The three frame conjuncts are the generated frames (the reference's is its generated run with the result
  dropped); nothing was rewritten by the idealization, so there is nothing to preserve.
-/
import proofs.«140650_j55198919688258_1_alg».proof.Defs
import proofs.«140650_j55198919688258_1_alg».proof.Proof.Gen.Kernel
import proofs.«140650_j55198919688258_1_alg».proof.Proof.Gen.Kernel.Skeleton
import proofs.«140650_j55198919688258_1_alg».proof.Proof.Gen.Kernel.Launch
import proofs.«140650_j55198919688258_1_alg».proof.Proof.Gen.Kernel.Points
import proofs.«140650_j55198919688258_1_alg».proof.Proof.Gen.Kernel.Frame
import proofs.«140650_j55198919688258_1_alg».proof.Proof.Gen.KernelIdeal
import proofs.«140650_j55198919688258_1_alg».proof.Proof.Gen.KernelIdeal.Skeleton
import proofs.«140650_j55198919688258_1_alg».proof.Proof.Gen.KernelIdeal.Launch
import proofs.«140650_j55198919688258_1_alg».proof.Proof.Gen.KernelIdeal.Points
import proofs.«140650_j55198919688258_1_alg».proof.Proof.Gen.KernelIdeal.Frame
import proofs.«140650_j55198919688258_1_alg».proof.Proof.Gen.ReferenceIdeal
import proofs.«140650_j55198919688258_1_alg».proof.Proof.Gen.Pre_finite_inputs
import proofs.«140650_j55198919688258_1_alg».proof.Proof.Gen.ReferenceIdeal.Run
import proofs.«140650_j55198919688258_1_alg».proof.Proof.Gen.ReferenceIdeal.Read
import proofs.«140650_j55198919688258_1_alg».proof.Proof.KernelRun
import proofs.«140650_j55198919688258_1_alg».proof.Proof.RefIsTarget
import Idealize.ShloMosaic.Adequacy
import Idealize.ShloMosaic.Init

noncomputable section

namespace Cert.Proof

open Idealize.ShloMosaic Idealize.SL.Sem Cert.Kernel

/-- At the ideal instance, from memories agreeing on the arguments, both programs end with the result array at the
    target function of the arguments: the kernel by its run read through the blocks, the reference by its generated
    run read one operation at a time. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Target.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact @KernelRun.run Cert.KernelIdeal.Gen.facts Cert.Pre_finite_inputs.Gen.facts m ρ hpre
  · refine (θ_run (Cert.ReferenceIdeal.defs (F := Ideal)) _ _).mono (fun _ h c => ⟨(h c).1.trans ?_, (h c).2⟩)
      (Cert.ReferenceIdeal.Value.run (F := Ideal) m' ρ')
    rw [Cert.ReferenceIdeal.Read.val_main_v51_eq, @RefIsTarget.ref_eq Cert.ReferenceIdeal.Gen.facts,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run (Cert.ReferenceIdeal.defs (F := Ideal)) _ _).mono (fun _ h c => (h c).2)
    (Cert.ReferenceIdeal.Value.run (F := Ideal) m ρ),
  trivial,
  algebraic⟩

end Cert.Proof

end
